-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x8192x1024 : Shape := ⟨3, ![4, 8192, 1024]⟩
abbrev S1024x1024 : Shape := ⟨2, ![1024, 1024]⟩
abbrev S1024 : Shape := ⟨1, ![1024]⟩
abbrev S_ : Shape := ⟨0, ![]⟩

class Facts : Prop where
  bcast_S_S4x8192x1024 : S_.BroadcastsInDim S4x8192x1024 (![] : Fin 0 → Fin S4x8192x1024.rank)
  reducesTo_S4x8192x1024_S_d0_1_2 : S4x8192x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x8192x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x8192x1024 .f32 := Host.absf main_arg0
  let main_cst : FVec F S_ .f32 := constant S_ .f32 0x7F800000#32
  let main_v1 : FVec F S4x8192x1024 .f32 := broadcastInDim S4x8192x1024 ![] bcast_S_S4x8192x1024 main_cst
  let main_v2 : IVec S4x8192x1024 1 := cmpf .olt main_v0 main_v1
  let main_c : IVec S_ 1 := constantI S_ 1 1#1
  let main_v3 : IVec S_ 1 := (fun x v => Host.reduce IntOp.andi x v reducesTo_S4x8192x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x8192x1024 : Shape := ⟨3, ![4, 8192, 1024]⟩
abbrev S1024x1024 : Shape := ⟨2, ![1024, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S512x16x64 : Shape := ⟨3, ![512, 16, 64]⟩
abbrev S512x16x16 : Shape := ⟨3, ![512, 16, 16]⟩
abbrev S512x16 : Shape := ⟨2, ![512, 16]⟩
abbrev S512x16x1 : Shape := ⟨3, ![512, 16, 1]⟩

abbrev nBuf : Space → Nat
  | .hbm => 24
  | .vmem => 12
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S32768x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S32768x1024, .f32⟩
  | .hbm, ⟨23, _⟩ => ⟨S4x8192x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S4x8192x1024_S32768x1024 : S4x8192x1024.ShapeCasts S32768x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S512x1024_S512x16x64 : S512x1024.ShapeCasts S512x16x64
  reduces_S512x16x16_S512x16 : S512x16x16.Reduces [2] S512x16
  shapeCasts_S512x16_S512x16x1 : S512x16.ShapeCasts S512x16x1
  broadcasts_S512x16x1_S512x16x16 : S512x16x1.Broadcasts S512x16x16
  shapeCasts_S512x16x64_S512x1024 : S512x16x64.ShapeCasts S512x1024
  shapeCasts_S32768x1024_S4x8192x1024 : S32768x1024.ShapeCasts S4x8192x1024
  dot_S512x1024_S1024x1024_S512x1024_1_0_0_1_n_n_wf : DotDims.WF S512x1024 S1024x1024 S512x1024 [1] [0] [0] [1] [] []
  dot_S512x16x64_S512x16x64_S512x16x16_2_2_1_1_0_0_wf : DotDims.WF S512x16x64 S512x16x64 S512x16x16 [2] [2] [1] [1] [0] [0]
  dot_S512x16x16_S512x16x64_S512x16x64_2_1_1_2_0_0_wf : DotDims.WF S512x16x16 S512x16x64 S512x16x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S32768x1024.size a
  hwx0_0 : ∀ i : grid0.Coords, EltTy.bits .f32 = 32 ∨ (Rect.block (s := S32768x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1024.size a ≤ S1024x1024.size a
  hwx0_7 : ∀ i : grid0.Coords, EltTy.bits .bf16 = 32 ∨ (Rect.block (s := S1024x1024) S1024x1024.size (cc0_transform_7 i) (hinb0_7 i)).WholeWords (EltTy.packing .bf16)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1024.size a ≤ S1x1024.size a
  hwx0_8 : ∀ i : grid0.Coords, EltTy.bits .f32 = 32 ∨ (Rect.block (s := S1x1024) S1x1024.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S32768x1024.size a
  hwx0_9 : ∀ i : grid0.Coords, EltTy.bits .f32 = 32 ∨ (Rect.block (s := S32768x1024) S512x1024.size (cc0_transform_9 i) (hinb0_9 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x16x64_S512x16x64_S512x16x16_2_2_1_1_0_0 : DotDims S512x16x64 S512x16x64 S512x16x16 where
  lhsContracting := [2]
  rhsContracting := [2]
  lhsNonContracting := [1]
  rhsNonContracting := [1]
  lhsBatch := [0]
  rhsBatch := [0]
  wf := dot_S512x16x64_S512x16x64_S512x16x16_2_2_1_1_0_0_wf
def dot_S512x16x16_S512x16x64_S512x16x64_2_1_1_2_0_0 : DotDims S512x16x16 S512x16x64 S512x16x64 where
  lhsContracting := [2]
  rhsContracting := [1]
  lhsNonContracting := [1]
  rhsNonContracting := [2]
  lhsBatch := [0]
  rhsBatch := [0]
  wf := dot_S512x16x16_S512x16x64_S512x16x64_2_1_1_2_0_0_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v8) S1024x1024.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v12) S1x1024.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v13) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S4x8192x1024 : Shape := ⟨3, ![4, 8192, 1024]⟩
abbrev S1024x1024 : Shape := ⟨2, ![1024, 1024]⟩
abbrev S1024 : Shape := ⟨1, ![1024]⟩
abbrev S1x1x1024 : Shape := ⟨3, ![1, 1, 1024]⟩
abbrev S4x8192x16x64 : Shape := ⟨4, ![4, 8192, 16, 64]⟩
abbrev S4x8192x16x16 : Shape := ⟨4, ![4, 8192, 16, 16]⟩
abbrev S_ : Shape := ⟨0, ![]⟩
abbrev S4x8192x16 : Shape := ⟨3, ![4, 8192, 16]⟩
abbrev S4x8192x16x1 : Shape := ⟨4, ![4, 8192, 16, 1]⟩

abbrev nBuf : Space → Nat
  | .hbm => 48
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x8192x1024, .f32⟩
  | .hbm, ⟨10, _⟩ => ⟨S1x1x1024, .f32⟩
  | .hbm, ⟨11, _⟩ => ⟨S4x8192x1024, .f32⟩
  | .hbm, ⟨12, _⟩ => ⟨S4x8192x1024, .f32⟩
  | .hbm, ⟨13, _⟩ => ⟨S4x8192x16x64, .f32⟩
  | .hbm, ⟨14, _⟩ => ⟨S4x8192x1024, .f32⟩
  | .hbm, ⟨15, _⟩ => ⟨S1x1x1024, .f32⟩
  | .hbm, ⟨16, _⟩ => ⟨S4x8192x1024, .f32⟩
  | .hbm, ⟨17, _⟩ => ⟨S4x8192x1024, .f32⟩
  | .hbm, ⟨18, _⟩ => ⟨S4x8192x16x64, .f32⟩
  | .hbm, ⟨19, _⟩ => ⟨S4x8192x1024, .f32⟩
  | .hbm, ⟨20, _⟩ => ⟨S1x1x1024, .f32⟩
  | .hbm, ⟨21, _⟩ => ⟨S4x8192x1024, .f32⟩
  | .hbm, ⟨22, _⟩ => ⟨S4x8192x1024, .f32⟩
  | .hbm, ⟨23, _⟩ => ⟨S4x8192x16x64, .f32⟩
  | .hbm, ⟨24, _⟩ => ⟨S4x8192x16x16, .f32⟩
  | .hbm, ⟨25, _⟩ => ⟨S_, .f32⟩
  | .hbm, ⟨26, _⟩ => ⟨S4x8192x16x16, .f32⟩
  | .hbm, ⟨27, _⟩ => ⟨S4x8192x16x16, .f32⟩
  | .hbm, ⟨28, _⟩ => ⟨S_, .f32⟩
  | .hbm, ⟨29, _⟩ => ⟨S4x8192x16, .f32⟩
  | .hbm, ⟨30, _⟩ => ⟨S_, .f32⟩
  | .hbm, ⟨31, _⟩ => ⟨S4x8192x16, .f32⟩
  | .hbm, ⟨32, _⟩ => ⟨S4x8192x16, .f32⟩
  | .hbm, ⟨33, _⟩ => ⟨S4x8192x16x1, .f32⟩
  | .hbm, ⟨34, _⟩ => ⟨S4x8192x16x16, .f32⟩
  | .hbm, ⟨35, _⟩ => ⟨S4x8192x16x16, .f32⟩
  | .hbm, ⟨36, _⟩ => ⟨S4x8192x16x16, .f32⟩
  | .hbm, ⟨37, _⟩ => ⟨S_, .f32⟩
  | .hbm, ⟨38, _⟩ => ⟨S4x8192x16, .f32⟩
  | .hbm, ⟨39, _⟩ => ⟨S4x8192x16x1, .f32⟩
  | .hbm, ⟨40, _⟩ => ⟨S4x8192x16x16, .f32⟩
  | .hbm, ⟨41, _⟩ => ⟨S4x8192x16x16, .f32⟩
  | .hbm, ⟨42, _⟩ => ⟨S4x8192x16x64, .f32⟩
  | .hbm, ⟨43, _⟩ => ⟨S4x8192x1024, .f32⟩
  | .hbm, ⟨44, _⟩ => ⟨S4x8192x1024, .f32⟩
  | .hbm, ⟨45, _⟩ => ⟨S1x1x1024, .f32⟩
  | .hbm, ⟨46, _⟩ => ⟨S4x8192x1024, .f32⟩
  | .hbm, ⟨47, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst : Ref sig .tc := ⟨.hbm, 25, rfl⟩
abbrev main_v16 : Ref sig .tc := ⟨.hbm, 26, rfl⟩
abbrev main_v17 : Ref sig .tc := ⟨.hbm, 27, rfl⟩
abbrev main_cst_0 : Ref sig .tc := ⟨.hbm, 28, rfl⟩
abbrev main_v18 : Ref sig .tc := ⟨.hbm, 29, rfl⟩
abbrev main_cst_1 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_2 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x8192x1024_0_1_2 : S1x1x1024.BroadcastsInDim S4x8192x1024 (![0, 1, 2] : Fin 3 → Fin S4x8192x1024.rank)
  shapeCasts_S4x8192x1024_S4x8192x16x64 : S4x8192x1024.ShapeCasts S4x8192x16x64
  bcast_S_S4x8192x16x16 : S_.BroadcastsInDim S4x8192x16x16 (![] : Fin 0 → Fin S4x8192x16x16.rank)
  reducesTo_S4x8192x16x16_S4x8192x16_d3 : S4x8192x16x16.ReducesTo [3] S4x8192x16
  h_S_ : 0 < S_.numel
  bcast_S_S4x8192x16 : S_.BroadcastsInDim S4x8192x16 (![] : Fin 0 → Fin S4x8192x16.rank)
  bcast_S4x8192x16_S4x8192x16x1_0_1_2 : S4x8192x16.BroadcastsInDim S4x8192x16x1 (![0, 1, 2] : Fin 3 → Fin S4x8192x16x1.rank)
  bcast_S4x8192x16x1_S4x8192x16x16_0_1_2_3 : S4x8192x16x1.BroadcastsInDim S4x8192x16x16 (![0, 1, 2, 3] : Fin 4 → Fin S4x8192x16x16.rank)
  shapeCasts_S4x8192x16x64_S4x8192x1024 : S4x8192x16x64.ShapeCasts S4x8192x1024
  dot_S4x8192x1024_S1024x1024_S4x8192x1024_2_1_01_0_n_n_wf : DotDims.WF S4x8192x1024 S1024x1024 S4x8192x1024 [2] [1] [0, 1] [0] [] []
  dot_S4x8192x16x64_S4x8192x16x64_S4x8192x16x16_3_3_2_2_01_01_wf : DotDims.WF S4x8192x16x64 S4x8192x16x64 S4x8192x16x16 [3] [3] [2] [2] [0, 1] [0, 1]
  dot_S4x8192x16x16_S4x8192x16x64_S4x8192x16x64_3_2_2_3_01_01_wf : DotDims.WF S4x8192x16x16 S4x8192x16x64 S4x8192x16x64 [3] [2] [2] [3] [0, 1] [0, 1]

variable [Facts₀]

def dot_S4x8192x1024_S1024x1024_S4x8192x1024_2_1_01_0_n_n : DotDims S4x8192x1024 S1024x1024 S4x8192x1024 where
  lhsContracting := [2]
  rhsContracting := [1]
  lhsNonContracting := [0, 1]
  rhsNonContracting := [0]
  lhsBatch := []
  rhsBatch := []
  wf := dot_S4x8192x1024_S1024x1024_S4x8192x1024_2_1_01_0_n_n_wf
def dot_S4x8192x16x64_S4x8192x16x64_S4x8192x16x16_3_3_2_2_01_01 : DotDims S4x8192x16x64 S4x8192x16x64 S4x8192x16x16 where
  lhsContracting := [3]
  rhsContracting := [3]
  lhsNonContracting := [2]
  rhsNonContracting := [2]
  lhsBatch := [0, 1]
  rhsBatch := [0, 1]
  wf := dot_S4x8192x16x64_S4x8192x16x64_S4x8192x16x16_3_3_2_2_01_01_wf
def dot_S4x8192x16x16_S4x8192x16x64_S4x8192x16x64_3_2_2_3_01_01 : DotDims S4x8192x16x16 S4x8192x16x64 S4x8192x16x64 where
  lhsContracting := [3]
  rhsContracting := [2]
  lhsNonContracting := [2]
  rhsNonContracting := [3]
  lhsBatch := [0, 1]
  rhsBatch := [0, 1]
  wf := dot_S4x8192x16x16_S4x8192x16x64_S4x8192x16x64_3_2_2_3_01_01_wf

class Facts : Prop extends Facts₀ where

variable [Facts]
-- ==== Proof.KernelDots.lean ====
/-
  The kernel body's three kinds of matrix product, each into a zero accumulator, read at an entry on the extended reals:
  a [512, 1024] block times a [1024, 1024] matrix is a sum over the 1024 shared columns; the head-against-head product of
  two [512, 16, 64] blocks, row by row, is a sum over the 64 entries of a head; and a [512, 16, 16] block of weights times
  a [512, 16, 64] block, row by row, is a sum over the 16 heads. Adding to zero changes no extended real.
-/
import proofs.«146372_j74466142978206_1_alg».proof.Proof.Gen.KernelIdeal
import Idealize.ShloMosaic.Lib.ValueIdx
import Idealize.ShloMosaic.PureOps.Ideal.Laws

noncomputable section

namespace Cert.Attn.Kernel

open Cert.KernelIdeal Cert.KernelIdeal.Gen Idealize.ShloMosaic Idealize.ShloMosaic.ValueIdx

/-- Row `p` of a [512, 1024] block times a [1024, 1024] matrix, at column `f`: the sum over the shared index `k` of the row's entry `k` times the matrix's entry `(k, f)`. -/
theorem rows_times_matrix (l : FVec Ideal S512x1024 .bf16) (r : FVec Ideal S1024x1024 .bf16) (p : Fin 512) (f : Fin 1024) :
    matmul (F := Ideal) dot_S512x1024_S1024x1024_S512x1024_1_0_0_1_n_n none l r (constant S512x1024 .f32 0x00000000#32) (ix2 p f)
      = ∑ k : Fin 1024, l (ix2 p k) * r (ix2 k f) := by
  have hl0 : ∀ q : dot_S512x1024_S1024x1024_S512x1024_1_0_0_1_n_n.contr.Idx, (dot_S512x1024_S1024x1024_S512x1024_1_0_0_1_n_n.lhsIdx (ix2 p f) q 0).val = p.val := fun q => by
    unfold DotDims.lhsIdx
    rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
    rfl
  have hl1 : ∀ q : dot_S512x1024_S1024x1024_S512x1024_1_0_0_1_n_n.contr.Idx, (dot_S512x1024_S1024x1024_S512x1024_1_0_0_1_n_n.lhsIdx (ix2 p f) q 1).val = (q ⟨0, by decide⟩).val := fun q => dot_S512x1024_S1024x1024_S512x1024_1_0_0_1_n_n.lhsIdx_val_of_single rfl _ q
  have hr0 : ∀ q : dot_S512x1024_S1024x1024_S512x1024_1_0_0_1_n_n.contr.Idx, (dot_S512x1024_S1024x1024_S512x1024_1_0_0_1_n_n.rhsIdx (ix2 p f) q 0).val = (q ⟨0, by decide⟩).val := fun q => dot_S512x1024_S1024x1024_S512x1024_1_0_0_1_n_n.rhsIdx_val_of_single rfl _ q
  have hr1 : ∀ q : dot_S512x1024_S1024x1024_S512x1024_1_0_0_1_n_n.contr.Idx, (dot_S512x1024_S1024x1024_S512x1024_1_0_0_1_n_n.rhsIdx (ix2 p f) q 1).val = f.val := fun q => by
    unfold DotDims.rhsIdx
    rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
    rfl
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p f) ((contrEquiv1 dot_S512x1024_S1024x1024_S512x1024_1_0_0_1_n_n 1024 rfl rfl).symm k) = ix2 p k := funext fun a => Fin.ext (by
    match a with
    | ⟨0, _⟩ => exact hl0 _
    | ⟨1, _⟩ => exact (hl1 _).trans hk)
  have er : dot_S512x1024_S1024x1024_S512x1024_1_0_0_1_n_n.rhsIdx (ix2 p f) ((contrEquiv1 dot_S512x1024_S1024x1024_S512x1024_1_0_0_1_n_n 1024 rfl rfl).symm k) = ix2 k f := funext fun a => Fin.ext (by
    match a with
    | ⟨0, _⟩ => exact (hr0 _).trans hk
    | ⟨1, _⟩ => exact hr1 _)
  rw [el, er]

/-- In row `p`, head `h` of the left block against head `g` of the right block: the sum over the 64 entries `d` of a head of the products of the two heads' entries. -/
theorem head_against_head (l : FVec Ideal S512x16x64 .f32) (r : FVec Ideal S512x16x64 .f32) (p : Fin 512) (h g : Fin 16) :
    matmul (F := Ideal) dot_S512x16x64_S512x16x64_S512x16x16_2_2_1_1_0_0 none l r (constant S512x16x16 .f32 0x00000000#32) (ix3 p h g)
      = ∑ k : Fin 64, l (ix3 p h k) * r (ix3 p g k) := by
  have hl0 : ∀ q : dot_S512x16x64_S512x16x64_S512x16x16_2_2_1_1_0_0.contr.Idx, (dot_S512x16x64_S512x16x64_S512x16x16_2_2_1_1_0_0.lhsIdx (ix3 p h g) q 0).val = p.val := fun q => by
    unfold DotDims.lhsIdx
    rw [dif_pos (show (0 : Fin S512x16x64.rank) ∈ dot_S512x16x64_S512x16x64_S512x16x16_2_2_1_1_0_0.lhsBatch by decide)]
    rfl
  have hl1 : ∀ q : dot_S512x16x64_S512x16x64_S512x16x16_2_2_1_1_0_0.contr.Idx, (dot_S512x16x64_S512x16x64_S512x16x16_2_2_1_1_0_0.lhsIdx (ix3 p h g) q 1).val = h.val := fun q => by
    unfold DotDims.lhsIdx
    rw [dif_neg (show ¬(1 : Fin S512x16x64.rank) ∈ dot_S512x16x64_S512x16x64_S512x16x16_2_2_1_1_0_0.lhsBatch by decide), dif_pos (show (1 : Fin S512x16x64.rank) ∈ dot_S512x16x64_S512x16x64_S512x16x16_2_2_1_1_0_0.lhsNonContracting by decide)]
    rfl
  have hl2 : ∀ q : dot_S512x16x64_S512x16x64_S512x16x16_2_2_1_1_0_0.contr.Idx, (dot_S512x16x64_S512x16x64_S512x16x16_2_2_1_1_0_0.lhsIdx (ix3 p h g) q 2).val = (q ⟨0, by decide⟩).val := fun q => dot_S512x16x64_S512x16x64_S512x16x16_2_2_1_1_0_0.lhsIdx_val_of_single rfl _ q
  have hr0 : ∀ q : dot_S512x16x64_S512x16x64_S512x16x16_2_2_1_1_0_0.contr.Idx, (dot_S512x16x64_S512x16x64_S512x16x16_2_2_1_1_0_0.rhsIdx (ix3 p h g) q 0).val = p.val := fun q => by
    unfold DotDims.rhsIdx
    rw [dif_pos (show (0 : Fin S512x16x64.rank) ∈ dot_S512x16x64_S512x16x64_S512x16x16_2_2_1_1_0_0.rhsBatch by decide)]
    rfl
  have hr1 : ∀ q : dot_S512x16x64_S512x16x64_S512x16x16_2_2_1_1_0_0.contr.Idx, (dot_S512x16x64_S512x16x64_S512x16x16_2_2_1_1_0_0.rhsIdx (ix3 p h g) q 1).val = g.val := fun q => by
    unfold DotDims.rhsIdx
    rw [dif_neg (show ¬(1 : Fin S512x16x64.rank) ∈ dot_S512x16x64_S512x16x64_S512x16x16_2_2_1_1_0_0.rhsBatch by decide), dif_pos (show (1 : Fin S512x16x64.rank) ∈ dot_S512x16x64_S512x16x64_S512x16x16_2_2_1_1_0_0.rhsNonContracting by decide)]
    rfl
  have hr2 : ∀ q : dot_S512x16x64_S512x16x64_S512x16x16_2_2_1_1_0_0.contr.Idx, (dot_S512x16x64_S512x16x64_S512x16x16_2_2_1_1_0_0.rhsIdx (ix3 p h g) q 2).val = (q ⟨0, by decide⟩).val := fun q => dot_S512x16x64_S512x16x64_S512x16x16_2_2_1_1_0_0.rhsIdx_val_of_single rfl _ q
  simp only [matmul]
  rw [Ideal.matmul_constant_zero_apply, ← Equiv.sum_comp (contrEquiv1 dot_S512x16x64_S512x16x64_S512x16x16_2_2_1_1_0_0 64 rfl rfl).symm]
  refine Finset.sum_congr rfl fun k _ => ?_
  have hk := contrEquiv1_symm_val dot_S512x16x64_S512x16x64_S512x16x16_2_2_1_1_0_0 64 rfl rfl k
  have el : dot_S512x16x64_S512x16x64_S512x16x16_2_2_1_1_0_0.lhsIdx (ix3 p h g) ((contrEquiv1 dot_S512x16x64_S512x16x64_S512x16x16_2_2_1_1_0_0 64 rfl rfl).symm k) = ix3 p h k := funext fun a => Fin.ext (by
    match a with
    | ⟨0, _⟩ => exact hl0 _
    | ⟨1, _⟩ => exact hl1 _
    | ⟨2, _⟩ => exact (hl2 _).trans hk)
  have er : dot_S512x16x64_S512x16x64_S512x16x16_2_2_1_1_0_0.rhsIdx (ix3 p h g) ((contrEquiv1 dot_S512x16x64_S512x16x64_S512x16x16_2_2_1_1_0_0 64 rfl rfl).symm k) = ix3 p g k := funext fun a => Fin.ext (by
    match a with
    | ⟨0, _⟩ => exact hr0 _
    | ⟨1, _⟩ => exact hr1 _
    | ⟨2, _⟩ => exact (hr2 _).trans hk)
  rw [el, er]

/-- In row `p`, the weights of head `h` times the right block's heads, at entry `d`: the sum over the 16 heads `g` of the weight `(h, g)` times entry `d` of head `g`. -/
theorem weights_times_heads (l : FVec Ideal S512x16x16 .f32) (r : FVec Ideal S512x16x64 .f32) (p : Fin 512) (h : Fin 16) (d : Fin 64) :
    matmul (F := Ideal) dot_S512x16x16_S512x16x64_S512x16x64_2_1_1_2_0_0 none l r (constant S512x16x64 .f32 0x00000000#32) (ix3 p h d)
      = ∑ k : Fin 16, l (ix3 p h k) * r (ix3 p k d) := by
  have hl0 : ∀ q : dot_S512x16x16_S512x16x64_S512x16x64_2_1_1_2_0_0.contr.Idx, (dot_S512x16x16_S512x16x64_S512x16x64_2_1_1_2_0_0.lhsIdx (ix3 p h d) q 0).val = p.val := fun q => by
    unfold DotDims.lhsIdx
    rw [dif_pos (show (0 : Fin S512x16x16.rank) ∈ dot_S512x16x16_S512x16x64_S512x16x64_2_1_1_2_0_0.lhsBatch by decide)]
    rfl
  have hl1 : ∀ q : dot_S512x16x16_S512x16x64_S512x16x64_2_1_1_2_0_0.contr.Idx, (dot_S512x16x16_S512x16x64_S512x16x64_2_1_1_2_0_0.lhsIdx (ix3 p h d) q 1).val = h.val := fun q => by
    unfold DotDims.lhsIdx
    rw [dif_neg (show ¬(1 : Fin S512x16x16.rank) ∈ dot_S512x16x16_S512x16x64_S512x16x64_2_1_1_2_0_0.lhsBatch by decide), dif_pos (show (1 : Fin S512x16x16.rank) ∈ dot_S512x16x16_S512x16x64_S512x16x64_2_1_1_2_0_0.lhsNonContracting by decide)]
    rfl
  have hl2 : ∀ q : dot_S512x16x16_S512x16x64_S512x16x64_2_1_1_2_0_0.contr.Idx, (dot_S512x16x16_S512x16x64_S512x16x64_2_1_1_2_0_0.lhsIdx (ix3 p h d) q 2).val = (q ⟨0, by decide⟩).val := fun q => dot_S512x16x16_S512x16x64_S512x16x64_2_1_1_2_0_0.lhsIdx_val_of_single rfl _ q
  have hr0 : ∀ q : dot_S512x16x16_S512x16x64_S512x16x64_2_1_1_2_0_0.contr.Idx, (dot_S512x16x16_S512x16x64_S512x16x64_2_1_1_2_0_0.rhsIdx (ix3 p h d) q 0).val = p.val := fun q => by
    unfold DotDims.rhsIdx
    rw [dif_pos (show (0 : Fin S512x16x64.rank) ∈ dot_S512x16x16_S512x16x64_S512x16x64_2_1_1_2_0_0.rhsBatch by decide)]
    rfl
  have hr1 : ∀ q : dot_S512x16x16_S512x16x64_S512x16x64_2_1_1_2_0_0.contr.Idx, (dot_S512x16x16_S512x16x64_S512x16x64_2_1_1_2_0_0.rhsIdx (ix3 p h d) q 1).val = (q ⟨0, by decide⟩).val := fun q => dot_S512x16x16_S512x16x64_S512x16x64_2_1_1_2_0_0.rhsIdx_val_of_single rfl _ q
  have hr2 : ∀ q : dot_S512x16x16_S512x16x64_S512x16x64_2_1_1_2_0_0.contr.Idx, (dot_S512x16x16_S512x16x64_S512x16x64_2_1_1_2_0_0.rhsIdx (ix3 p h d) q 2).val = d.val := fun q => by
    unfold DotDims.rhsIdx
    rw [dif_neg (show ¬(2 : Fin S512x16x64.rank) ∈ dot_S512x16x16_S512x16x64_S512x16x64_2_1_1_2_0_0.rhsBatch by decide), dif_pos (show (2 : Fin S512x16x64.rank) ∈ dot_S512x16x16_S512x16x64_S512x16x64_2_1_1_2_0_0.rhsNonContracting by decide)]
    rfl
  simp only [matmul]
  rw [Ideal.matmul_constant_zero_apply, ← Equiv.sum_comp (contrEquiv1 dot_S512x16x16_S512x16x64_S512x16x64_2_1_1_2_0_0 16 rfl rfl).symm]
  refine Finset.sum_congr rfl fun k _ => ?_
  have hk := contrEquiv1_symm_val dot_S512x16x16_S512x16x64_S512x16x64_2_1_1_2_0_0 16 rfl rfl k
  have el : dot_S512x16x16_S512x16x64_S512x16x64_2_1_1_2_0_0.lhsIdx (ix3 p h d) ((contrEquiv1 dot_S512x16x16_S512x16x64_S512x16x64_2_1_1_2_0_0 16 rfl rfl).symm k) = ix3 p h k := funext fun a => Fin.ext (by
    match a with
    | ⟨0, _⟩ => exact hl0 _
    | ⟨1, _⟩ => exact hl1 _
    | ⟨2, _⟩ => exact (hl2 _).trans hk)
  have er : dot_S512x16x16_S512x16x64_S512x16x64_2_1_1_2_0_0.rhsIdx (ix3 p h d) ((contrEquiv1 dot_S512x16x16_S512x16x64_S512x16x64_2_1_1_2_0_0 16 rfl rfl).symm k) = ix3 p k d := funext fun a => Fin.ext (by
    match a with
    | ⟨0, _⟩ => exact hr0 _
    | ⟨1, _⟩ => exact (hr1 _).trans hk
    | ⟨2, _⟩ => exact hr2 _)
  rw [el, er]

end Cert.Attn.Kernel

end
-- ==== Proof.Spec.lean ====
/-
  One token of multi-head attention without the head transpose, as a function of the token's input row.

  A row `x` of 1024 entries goes through three linear layers `y f = Σ_e x e · W f e + b f` (queries, keys, values).
  Each 1024-wide result is read as 16 heads of 64 entries: column `h·64 + d` is entry `d` of head `h`. The score of
  head `h` against head `g` is the dot product of their 64 entries times one eighth (`1/√64`). Each row of the
  16 × 16 score matrix goes through a softmax: subtract the row's maximum, exponentiate, divide by the row's sum.
  Head `h` of the mixed row is `Σ_g p h g · v_g`, and the mixed row goes through a fourth linear layer.

  Everything is stated on the extended reals, with the operations of the ideal float instance, so that both programs'
  results can be read as this one function, index by index. No step needs the entries to be finite: the two programs
  differ only in how they tile the rows and in writing the eighth as a product or as a quotient by 8, and these agree
  on every extended real.
-/
import Idealize.ShloMosaic.PureOps.Ideal
import Idealize.ShloMosaic.Lib.ValueIdx

noncomputable section

namespace Cert.Attn

open Idealize.ShloMosaic Idealize.ShloMosaic.ValueIdx

/-- Column `h·64 + d` of a 1024-wide row: entry `d` of head `h`. -/
def col (h : Fin 16) (d : Fin 64) : Fin 1024 := ⟨h.val * 64 + d.val, by have := h.isLt; have := d.isLt; omega⟩

/-- The head a column belongs to. -/
def headOf (e : Fin 1024) : Fin 16 := ⟨e.val / 64, by have := e.isLt; omega⟩

/-- A column's place inside its head. -/
def offOf (e : Fin 1024) : Fin 64 := ⟨e.val % 64, Nat.mod_lt _ (by decide)⟩

theorem col_headOf_offOf (e : Fin 1024) : col (headOf e) (offOf e) = e :=
  Fin.ext (by show e.val / 64 * 64 + e.val % 64 = e.val; omega)

theorem headOf_col (h : Fin 16) (d : Fin 64) : headOf (col h d) = h :=
  Fin.ext (by show (h.val * 64 + d.val) / 64 = h.val; have := d.isLt; omega)

theorem offOf_col (h : Fin 16) (d : Fin 64) : offOf (col h d) = d :=
  Fin.ext (by show (h.val * 64 + d.val) % 64 = d.val; have := d.isLt; omega)

/-- A linear layer on one row: `y f = Σ_e x e · W f e + b f` (the weight's FIRST index is the output column). -/
def lin (x : Fin 1024 → EReal) (W : Fin 1024 → Fin 1024 → EReal) (b : Fin 1024 → EReal) (f : Fin 1024) : EReal :=
  (∑ e : Fin 1024, x e * W f e) + b f

/-- One eighth, as the float word both programs could spell it. -/
def eighth : EReal := Ideal.ofBits .f32 0x3E000000#32

/-- The float word of minus infinity, from which a row's maximum is taken. -/
def negInf : EReal := Ideal.ofBits .f32 0xFF800000#32

/-- The score of head `h` of the queries against head `g` of the keys. -/
def score (q k : Fin 1024 → EReal) (h g : Fin 16) : EReal := (∑ d : Fin 64, q (col h d) * k (col g d)) * eighth

/-- The maximum of a row of 16 scores, as both programs take it: the fold of `max` from minus infinity, and once more
    the maximum with minus infinity. -/
def top (s : Fin 16 → EReal) : EReal := max negInf ((Finset.univ : Finset (Fin 16)).fold max negInf s)

/-- The exponential of a score less its row's maximum. -/
def ex (s : Fin 16 → EReal) (g : Fin 16) : EReal := Ideal.exp (s g - top s)

/-- The softmax of a row of 16 scores. -/
def prob (s : Fin 16 → EReal) (g : Fin 16) : EReal := Ideal.div (ex s g) (∑ g' : Fin 16, ex s g')

/-- The mixed row: at column `e` of head `h`, `Σ_g p h g · v (g, e's place in its head)`. -/
def mixed (q k v : Fin 1024 → EReal) (e : Fin 1024) : EReal :=
  ∑ g : Fin 16, prob (score q k (headOf e)) g * v (col g (offOf e))

/-- One token: queries, keys and values from the row, the mixed row, the output layer. -/
def token (x : Fin 1024 → EReal) (Wq : Fin 1024 → Fin 1024 → EReal) (bq : Fin 1024 → EReal)
    (Wk : Fin 1024 → Fin 1024 → EReal) (bk : Fin 1024 → EReal) (Wv : Fin 1024 → Fin 1024 → EReal) (bv : Fin 1024 → EReal)
    (Wo : Fin 1024 → Fin 1024 → EReal) (bo : Fin 1024 → EReal) : Fin 1024 → EReal :=
  lin (mixed (lin x Wq bq) (lin x Wk bk) (lin x Wv bv)) Wo bo

/-- A [1024, 1024] array as a function of its two coordinates. -/
def mat (W : (⟨2, ![1024, 1024]⟩ : Shape).Idx → EReal) (f e : Fin 1024) : EReal := W (ix2 f e)

/-- A [1024] array as a function of its coordinate. -/
def vec (b : (⟨1, ![1024]⟩ : Shape).Idx → EReal) (f : Fin 1024) : EReal := b (ix1 f)

/-- Row `(b, s)` of a [4, 8192, 1024] array. -/
def row (x : (⟨3, ![4, 8192, 1024]⟩ : Shape).Idx → EReal) (b : Fin 4) (s : Fin 8192) (e : Fin 1024) : EReal := x (ix3 b s e)

/-- The whole result: entry `(b, s, f)` is column `f` of the token computed from row `(b, s)` of the input. -/
def whole (x : (⟨3, ![4, 8192, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal) :
    (⟨3, ![4, 8192, 1024]⟩ : Shape).Idx → EReal := fun i =>
  token (row x (i 0) (i 1)) (mat Wq) (vec bq) (mat Wk) (vec bk) (mat Wv) (vec bv) (mat Wo) (vec bo) (i 2)

/-- The float word `8.0` denotes the real 8. -/
theorem ofBits_eight : Ideal.ofBits .f32 0x41000000#32 = ((8 : ℝ) : EReal) := by
  simp [Ideal.ofBits, Ideal.ieee, -EReal.coe_mul]; norm_num

/-- The float word `0.125` denotes the real 1/8. -/
theorem eighth_eq : eighth = ((1 / 8 : ℝ) : EReal) := by
  unfold eighth
  simp [Ideal.ofBits, Ideal.ieee, -EReal.coe_mul]; norm_num

/-- Dividing by the word `8.0` is multiplying by the word `0.125`, on every extended real. -/
theorem div_eight (z : EReal) : Ideal.div z (Ideal.ofBits .f32 0x41000000#32) = z * eighth := by
  rw [ofBits_eight, eighth_eq, Ideal.div_coe (by norm_num : (8 : ℝ) ≠ 0)]

end Cert.Attn

end
-- ==== Proof.KernelLayout.lean ====
/-
  The kernel body's layout operations and lane reductions read at an entry.

  A [512, 1024] block is read as 512 rows of 16 heads of 64 entries: entry `(p, h, d)` of the [512, 16, 64] view is entry
  `(p, h·64 + d)` of the block, and back. A [512, 16] array of per-head numbers, given a unit last axis and broadcast along
  it, reads at `(p, h, g)` the number of `(p, h)`, whatever `g`. A [1, 1024] row broadcast over 512 rows reads at `(p, f)`
  its entry `f`. The maximum and the sum over the last axis of a [512, 16, 16] array are, at `(p, h)`, the fold of `max` from
  the starting word and the plain sum over the 16 entries `(p, h, ·)`.
-/
import proofs.«146372_j74466142978206_1_alg».proof.Proof.Gen.KernelIdeal
import proofs.«146372_j74466142978206_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.Attn.Kernel

open Cert.KernelIdeal Cert.KernelIdeal.Gen Cert.Attn Idealize.ShloMosaic Idealize.ShloMosaic.ValueIdx

/-- Entry `(p, h, d)` of the heads view of a [512, 1024] block is the block's entry `(p, h·64 + d)`. -/
theorem heads_view {α : Type} (y : S512x1024.Idx → α) (p : Fin 512) (h : Fin 16) (d : Fin 64) :
    shapeCast S512x16x64 y shapeCasts_S512x1024_S512x16x64 (ix3 p h d) = y (ix2 p (col h d)) :=
  shapeCast_apply y shapeCasts_S512x1024_S512x16x64 (ix3 p h d) (ix2 p (col h d)) (by
    rw [Shape.rowMajor_val_two, Shape.rowMajor_val_three]
    show p.val * 1024 + (h.val * 64 + d.val) = (p.val * 16 + h.val) * 64 + d.val
    omega)

/-- Entry `(p, e)` of the row view of a [512, 16, 64] block is the block's entry `(p, e / 64, e % 64)`. -/
theorem row_view {α : Type} (z : S512x16x64.Idx → α) (p : Fin 512) (e : Fin 1024) :
    shapeCast S512x1024 z shapeCasts_S512x16x64_S512x1024 (ix2 p e) = z (ix3 p (headOf e) (offOf e)) :=
  shapeCast_apply z shapeCasts_S512x16x64_S512x1024 (ix2 p e) (ix3 p (headOf e) (offOf e)) (by
    rw [Shape.rowMajor_val_two, Shape.rowMajor_val_three]
    show (p.val * 16 + e.val / 64) * 64 + e.val % 64 = p.val * 1024 + e.val
    omega)

/-- A per-head number given a unit last axis and broadcast along it: at `(p, h, g)` it is the number of `(p, h)`. -/
theorem per_head_spread {α : Type} (v : S512x16.Idx → α) (p : Fin 512) (h g : Fin 16) :
    broadcastTo S512x16x16 (shapeCast S512x16x1 v shapeCasts_S512x16_S512x16x1) broadcasts_S512x16x1_S512x16x16 (ix3 p h g)
      = v (ix2 p h) := by
  refine (broadcastTo_apply _ broadcasts_S512x16x1_S512x16x16 (ix3 p h g) (ix3 p h (0 : Fin 1)) (fun a => ?_)).trans ?_
  · match a with
    | ⟨0, _⟩ => show p.val = if (512 : Nat) = 1 then 0 else p.val; rw [if_neg (by decide)]
    | ⟨1, _⟩ => show h.val = if (16 : Nat) = 1 then 0 else h.val; rw [if_neg (by decide)]
    | ⟨2, _⟩ => show 0 = if (1 : Nat) = 1 then 0 else g.val; rw [if_pos rfl]
  · exact shapeCast_apply v shapeCasts_S512x16_S512x16x1 (ix3 p h (0 : Fin 1)) (ix2 p h) (by
      rw [Shape.rowMajor_val_two, Shape.rowMajor_val_three]
      show p.val * 16 + h.val = (p.val * 16 + h.val) * 1 + 0
      omega)

/-- A [1, 1024] row, recast to its own shape and broadcast over 512 rows: at `(p, f)` it is the row's entry `f`. -/
theorem bias_row {α : Type} (b : S1x1024.Idx → α) (p : Fin 512) (f : Fin 1024) :
    broadcastTo S512x1024 (shapeCast S1x1024 b shapeCasts_S1x1024_S1x1024) broadcasts_S1x1024_S512x1024 (ix2 p f)
      = b (ix2 (0 : Fin 1) f) := by
  rw [shapeCast_self]
  exact broadcastTo_1b_ab_apply b broadcasts_S1x1024_S512x1024 p f

/-- The index the reduction over the last axis reads at `(p, h)` and position `g` is `(p, h, g)`. -/
theorem lift_last (p : Fin 512) (h g : Fin 16) : reduces_S512x16x16_S512x16.lift (ix2 p h) g = ix3 p h g :=
  funext fun a => Fin.ext (by
    match a with
    | ⟨0, _⟩ => rfl
    | ⟨1, _⟩ => rfl
    | ⟨2, _⟩ => rfl)

/-- The maximum over the last axis, from the word of minus infinity: at `(p, h)` the fold of `max` over the 16 entries. -/
theorem lane_max (v : FVec Ideal S512x16x16 .f32) (p : Fin 512) (h : Fin 16) :
    multiReduction .maximumf [2] S512x16 v 0xFF800000#32 reduces_S512x16x16_S512x16 (.inl rfl) rfl (ix2 p h)
      = (Finset.univ : Finset (Fin 16)).fold max negInf (fun g => v (ix3 p h g)) := by
  refine (Ideal.multiReduction_maximumf_single v 0xFF800000#32 reduces_S512x16x16_S512x16 (.inl rfl) rfl (ix2 p h)).trans ?_
  show Finset.fold max negInf (fun g : Fin 16 => v (reduces_S512x16x16_S512x16.lift (ix2 p h) g)) Finset.univ = _
  exact congrArg (fun f : Fin 16 → EReal => Finset.fold max negInf f Finset.univ) (funext fun g => congrArg v (lift_last p h g))

/-- The sum over the last axis, from zero: at `(p, h)` the sum of the 16 entries. -/
theorem lane_sum (v : FVec Ideal S512x16x16 .f32) (p : Fin 512) (h : Fin 16) :
    multiReduction .add [2] S512x16 v 0x00000000#32 reduces_S512x16x16_S512x16 (.inl rfl) rfl (ix2 p h)
      = ∑ g : Fin 16, v (ix3 p h g) := by
  refine (Ideal.multiReduction_add_single v 0x00000000#32 reduces_S512x16x16_S512x16 (.inl rfl) rfl (ix2 p h)).trans ?_
  exact Finset.sum_congr rfl fun g _ => congrArg v (lift_last p h g)

end Cert.Attn.Kernel

end
-- ==== Proof.KernelToken.lean ====
/-
  The kernel body's values read at an entry, on the extended reals.

  For a block of 512 input rows, the transposed weight matrices (entry `(e, f)` of a staged matrix is the weight of input
  column `e` for output column `f`) and the bias rows, the body computes row by row: row `p` of the stored block is the
  token of row `p` of the input block. The steps are the specification's: a linear layer is a row-times-matrix product into
  zero plus the bias row; the scores are the head-against-head product times the eighth; the shifted exponentials subtract
  the lane maximum; the weights divide by the lane sum; the mixed row is the weights-times-heads product read back as a row.
-/
import proofs.«146372_j74466142978206_1_alg».proof.Proof.Gen.KernelIdeal.Skeleton
import proofs.«146372_j74466142978206_1_alg».proof.Proof.KernelDots
import proofs.«146372_j74466142978206_1_alg».proof.Proof.KernelLayout

noncomputable section

namespace Cert.Attn.Kernel

open Cert.KernelIdeal Cert.KernelIdeal.Gen Cert.Attn Idealize.ShloMosaic Idealize.ShloMosaic.TcCoe Idealize.ShloMosaic.ValueIdx

/-- Row `p` of a block of 512 rows. -/
def blockRow (x : S512x1024.Idx → EReal) (p : Fin 512) (e : Fin 1024) : EReal := x (ix2 p e)

/-- A staged (transposed) weight matrix as the specification reads weights: output column first. -/
def staged (w : S1024x1024.Idx → EReal) (f e : Fin 1024) : EReal := w (ix2 e f)

/-- A staged bias row as a function of the column. -/
def biasOf (b : S1x1024.Idx → EReal) (f : Fin 1024) : EReal := b (ix2 (0 : Fin 1) f)

/-- The narrowed copy of the input block is the input block, entry by entry. -/
theorem narrowed_apply (x : FVec Ideal S512x1024 .f32) (p : Fin 512) (e : Fin 1024) : (k0_pay2 (F := Ideal) x (ix2 p e) : EReal) = (x (ix2 p e) : EReal) := by
  show (shapeCast S512x1024 x shapeCasts_S512x1024_S512x1024 (ix2 p e) : EReal) = _
  rw [shapeCast_self]

/-- A linear layer of the body, at row `p` and column `f`: the specification's linear layer of row `p`. -/
theorem linear_block (x : FVec Ideal S512x1024 .f32) (w : FVec Ideal S1024x1024 .bf16) (b : FVec Ideal S1x1024 .f32) (p : Fin 512) (f : Fin 1024) :
    (addf (matmul dot_S512x1024_S1024x1024_S512x1024_1_0_0_1_n_n none (k0_pay2 (F := Ideal) x) (shapeCast S1024x1024 w shapeCasts_S1024x1024_S1024x1024) (constant S512x1024 .f32 0x00000000#32)) (broadcastTo S512x1024 (shapeCast S1x1024 b shapeCasts_S1x1024_S1x1024) broadcasts_S1x1024_S512x1024)) (ix2 p f)
      = lin (blockRow x p) (staged w) (biasOf b) f := by
  show matmul dot_S512x1024_S1024x1024_S512x1024_1_0_0_1_n_n none (k0_pay2 (F := Ideal) x) (shapeCast S1024x1024 w shapeCasts_S1024x1024_S1024x1024) (constant S512x1024 .f32 0x00000000#32) (ix2 p f)
      + broadcastTo S512x1024 (shapeCast S1x1024 b shapeCasts_S1x1024_S1x1024) broadcasts_S1x1024_S512x1024 (ix2 p f) = _
  rw [rows_times_matrix, bias_row, shapeCast_self]
  unfold lin blockRow staged biasOf
  exact congrArg (· + b (ix2 (0 : Fin 1) f)) (Finset.sum_congr rfl fun k _ => by rw [narrowed_apply])

/-- The scores of the body, at row `p`, heads `h` and `g`: the specification's score of the two rows. -/
theorem scores_block (y z : FVec Ideal S512x1024 .f32) (p : Fin 512) (h g : Fin 16) :
    (mulf (matmul dot_S512x16x64_S512x16x64_S512x16x16_2_2_1_1_0_0 none (shapeCast S512x16x64 y shapeCasts_S512x1024_S512x16x64) (shapeCast S512x16x64 z shapeCasts_S512x1024_S512x16x64) (constant S512x16x16 .f32 0x00000000#32))
        (broadcast S512x16x16 (Scalar.ofBits (F := Ideal) .f32 0x3E000000#32))) (ix3 p h g)
      = score (fun e => y (ix2 p e)) (fun e => z (ix2 p e)) h g := by
  show matmul dot_S512x16x64_S512x16x64_S512x16x16_2_2_1_1_0_0 none (shapeCast S512x16x64 y shapeCasts_S512x1024_S512x16x64) (shapeCast S512x16x64 z shapeCasts_S512x1024_S512x16x64) (constant S512x16x16 .f32 0x00000000#32) (ix3 p h g)
      * eighth = _
  rw [head_against_head]
  unfold score
  exact congrArg (· * eighth) (Finset.sum_congr rfl fun d _ => by rw [heads_view, heads_view])

/-- The shifted exponentials of the body: at row `p`, head `h`, position `g`, the exponential of the score less the
    maximum of the 16 scores of `(p, h)`. -/
theorem shifted_exp_block (s : FVec Ideal S512x16x16 .f32) (p : Fin 512) (h g : Fin 16) :
    (exp (subf s (broadcastTo S512x16x16 (shapeCast S512x16x1
        (maximumf (broadcast S512x16 (Scalar.ofBits (F := Ideal) .f32 0xFF800000#32)) (multiReduction .maximumf [2] S512x16 s 0xFF800000#32 reduces_S512x16x16_S512x16 (.inl rfl) rfl))
        shapeCasts_S512x16_S512x16x1) broadcasts_S512x16x1_S512x16x16))) (ix3 p h g)
      = ex (fun g' => s (ix3 p h g')) g := by
  show Ideal.exp (s (ix3 p h g) - broadcastTo S512x16x16 (shapeCast S512x16x1
        (maximumf (broadcast S512x16 (Scalar.ofBits (F := Ideal) .f32 0xFF800000#32)) (multiReduction .maximumf [2] S512x16 s 0xFF800000#32 reduces_S512x16x16_S512x16 (.inl rfl) rfl))
        shapeCasts_S512x16_S512x16x1) broadcasts_S512x16x1_S512x16x16 (ix3 p h g)) = _
  rw [per_head_spread]
  show Ideal.exp (s (ix3 p h g) - max negInf (multiReduction .maximumf [2] S512x16 s 0xFF800000#32 reduces_S512x16x16_S512x16 (.inl rfl) rfl (ix2 p h))) = _
  rw [lane_max]
  rfl

/-- The value payload at row `p`, head `g`, entry `d`: the values' linear layer of row `p` at column `g·64 + d`. -/
theorem values_apply (x : FVec Ideal S512x1024 .f32) (w : FVec Ideal S1024x1024 .bf16) (b : FVec Ideal S1x1024 .f32) (p : Fin 512) (g : Fin 16) (d : Fin 64) :
    k0_pay3 (F := Ideal) x w b (ix3 p g d) = lin (blockRow x p) (staged w) (biasOf b) (col g d) :=
  (heads_view (addf (matmul dot_S512x1024_S1024x1024_S512x1024_1_0_0_1_n_n none (k0_pay2 (F := Ideal) x) (shapeCast S1024x1024 w shapeCasts_S1024x1024_S1024x1024) (constant S512x1024 .f32 0x00000000#32)) (broadcastTo S512x1024 (shapeCast S1x1024 b shapeCasts_S1x1024_S1x1024) broadcasts_S1x1024_S512x1024)) p g d).trans (linear_block x w b p (col g d))

/-- The score payload at row `p`, heads `h`, `g`: the shifted exponential of the scores of row `p`'s queries and keys. -/
theorem shifted_apply (x : FVec Ideal S512x1024 .f32) (wq : FVec Ideal S1024x1024 .bf16) (bq : FVec Ideal S1x1024 .f32)
    (wk : FVec Ideal S1024x1024 .bf16) (bk : FVec Ideal S1x1024 .f32) (p : Fin 512) (h g : Fin 16) :
    k0_pay4 (F := Ideal) x wq bq wk bk (ix3 p h g)
      = ex (score (lin (blockRow x p) (staged wq) (biasOf bq)) (lin (blockRow x p) (staged wk) (biasOf bk)) h) g := by
  refine (shifted_exp_block (mulf (matmul dot_S512x16x64_S512x16x64_S512x16x16_2_2_1_1_0_0 none (shapeCast S512x16x64 (addf (matmul dot_S512x1024_S1024x1024_S512x1024_1_0_0_1_n_n none (k0_pay2 (F := Ideal) x) (shapeCast S1024x1024 wq shapeCasts_S1024x1024_S1024x1024) (constant S512x1024 .f32 0x00000000#32)) (broadcastTo S512x1024 (shapeCast S1x1024 bq shapeCasts_S1x1024_S1x1024) broadcasts_S1x1024_S512x1024)) shapeCasts_S512x1024_S512x16x64) (shapeCast S512x16x64 (addf (matmul dot_S512x1024_S1024x1024_S512x1024_1_0_0_1_n_n none (k0_pay2 (F := Ideal) x) (shapeCast S1024x1024 wk shapeCasts_S1024x1024_S1024x1024) (constant S512x1024 .f32 0x00000000#32)) (broadcastTo S512x1024 (shapeCast S1x1024 bk shapeCasts_S1x1024_S1x1024) broadcasts_S1x1024_S512x1024)) shapeCasts_S512x1024_S512x16x64) (constant S512x16x16 .f32 0x00000000#32))
        (broadcast S512x16x16 (Scalar.ofBits (F := Ideal) .f32 0x3E000000#32))) p h g).trans ?_
  refine congrArg (fun s => ex s g) (funext fun g' => ?_)
  rw [scores_block]
  exact congrArg₂ (fun a b => score a b h g') (funext fun e => linear_block x wq bq p e) (funext fun e => linear_block x wk bk p e)

/-- The last payload at row `p`, column `f`, from the value heads `v` and the shifted exponentials `u`: the output layer
    of the row whose column `e` is `Σ_g (u / Σ u)(p, head of e, g) · v (p, g, place of e)`. -/
theorem output_apply (v : FVec Ideal S512x16x64 .f32) (u : FVec Ideal S512x16x16 .f32) (w : FVec Ideal S1024x1024 .bf16) (b : FVec Ideal S1x1024 .f32)
    (p : Fin 512) (f : Fin 1024) :
    k0_pay1 (F := Ideal) v u w b (ix2 p f)
      = lin (fun e => ∑ g : Fin 16, Ideal.div (u (ix3 p (headOf e) g)) (∑ g' : Fin 16, u (ix3 p (headOf e) g')) * v (ix3 p g (offOf e)))
          (staged w) (biasOf b) f := by
  show matmul dot_S512x1024_S1024x1024_S512x1024_1_0_0_1_n_n none
        (truncf .bf16 (shapeCast S512x1024 (matmul dot_S512x16x16_S512x16x64_S512x16x64_2_1_1_2_0_0 none
          (divf u (broadcastTo S512x16x16 (shapeCast S512x16x1 (multiReduction .add [2] S512x16 u 0x00000000#32 reduces_S512x16x16_S512x16 (.inl rfl) rfl) shapeCasts_S512x16_S512x16x1) broadcasts_S512x16x1_S512x16x16))
          v (constant S512x16x64 .f32 0x00000000#32)) shapeCasts_S512x16x64_S512x1024) bitsLt_bf16_f32)
        (shapeCast S1024x1024 w shapeCasts_S1024x1024_S1024x1024) (constant S512x1024 .f32 0x00000000#32) (ix2 p f)
      + broadcastTo S512x1024 (shapeCast S1x1024 b shapeCasts_S1x1024_S1x1024) broadcasts_S1x1024_S512x1024 (ix2 p f) = _
  rw [rows_times_matrix, bias_row, shapeCast_self]
  unfold lin staged biasOf
  refine congrArg (· + b (ix2 (0 : Fin 1) f)) (Finset.sum_congr rfl fun e _ => congrArg (· * w (ix2 e f)) ?_)
  show shapeCast S512x1024 (matmul dot_S512x16x16_S512x16x64_S512x16x64_2_1_1_2_0_0 none
          (divf u (broadcastTo S512x16x16 (shapeCast S512x16x1 (multiReduction .add [2] S512x16 u 0x00000000#32 reduces_S512x16x16_S512x16 (.inl rfl) rfl) shapeCasts_S512x16_S512x16x1) broadcasts_S512x16x1_S512x16x16))
          v (constant S512x16x64 .f32 0x00000000#32)) shapeCasts_S512x16x64_S512x1024 (ix2 p e) = _
  rw [row_view, weights_times_heads]
  refine Finset.sum_congr rfl fun g _ => congrArg (· * v (ix3 p g (offOf e))) ?_
  show Ideal.div (u (ix3 p (headOf e) g)) (broadcastTo S512x16x16 (shapeCast S512x16x1 (multiReduction .add [2] S512x16 u 0x00000000#32 reduces_S512x16x16_S512x16 (.inl rfl) rfl) shapeCasts_S512x16_S512x16x1) broadcasts_S512x16x1_S512x16x16 (ix3 p (headOf e) g)) = _
  rw [per_head_spread, lane_sum]

/-- Row `p`, column `f` of the block the body stores is column `f` of the token of row `p` of the input block. -/
theorem stored_apply (x0 : FVec Ideal S512x1024 .f32) (x1 : FVec Ideal S1024x1024 .bf16) (x2 : FVec Ideal S1x1024 .f32)
    (x3 : FVec Ideal S1024x1024 .bf16) (x4 : FVec Ideal S1x1024 .f32) (x5 : FVec Ideal S1024x1024 .bf16) (x6 : FVec Ideal S1x1024 .f32)
    (x7 : FVec Ideal S1024x1024 .bf16) (x8 : FVec Ideal S1x1024 .f32) (p : Fin 512) (f : Fin 1024) :
    k0_pay1 (F := Ideal) (k0_pay3 (F := Ideal) x0 x5 x6) (k0_pay4 (F := Ideal) x0 x1 x2 x3 x4) x7 x8 (ix2 p f)
      = token (blockRow x0 p) (staged x1) (biasOf x2) (staged x3) (biasOf x4) (staged x5) (biasOf x6) (staged x7) (biasOf x8) f := by
  rw [output_apply]
  unfold token
  refine congrArg (fun r => lin r (staged x7) (biasOf x8) f) (funext fun e => ?_)
  unfold mixed
  refine Finset.sum_congr rfl fun g _ => ?_
  rw [values_apply]
  refine congrArg (· * lin (blockRow x0 p) (staged x5) (biasOf x6) (col g (offOf e))) ?_
  unfold prob
  rw [shifted_apply]
  exact congrArg (Ideal.div _) (Finset.sum_congr rfl fun g' _ => shifted_apply x0 x1 x2 x3 x4 p (headOf e) g')

end Cert.Attn.Kernel

end
-- ==== Proof.KernelOut.lean ====
/-
  The region's result array and the reshape after it.

  The region writes a [32768, 1024] array in 64 blocks of 512 rows: grid point `t` writes rows `t·512 … t·512 + 511`, all
  1024 columns, so every index of the array is in exactly the block of the point its row falls in. Row `r` of that array is
  the token of input row `(r / 8192, r % 8192)`. The program's result is that array read as [4, 8192, 1024]: entry
  `(b, s, f)` is entry `(b·8192 + s, f)`, and `(b·8192 + s) / 8192 = b`, `(b·8192 + s) % 8192 = s`.
-/
import proofs.«146372_j74466142978206_1_alg».proof.Proof.Gen.KernelIdeal.Frame
import proofs.«146372_j74466142978206_1_alg».proof.Proof.Spec
import Idealize.ShloMosaic.Lib.ValueIdx
import Idealize.ShloMosaic.Lib.Pipeline.Value
import Idealize.ShloMosaic.Lib.StableHlo.Run

set_option maxRecDepth 16384

noncomputable section

namespace Cert.Attn.Kernel

open Cert.KernelIdeal Cert.KernelIdeal.Gen Cert.Attn Idealize.ShloMosaic Idealize.ShloMosaic.TcCoe Idealize.ShloMosaic.ValueIdx Idealize.SL.Sem Idealize.ShloMosaic.StableHlo

/-- The origin of a rank-2 rectangle, as a function. -/
theorem origin2 : (![0, 0] : Fin 2 → Nat) = fun _ => 0 := funext fun a => by fin_cases a <;> rfl

/-- The result window's block index at grid point `t` is `(t, 0)`. -/
theorem out_index : ∀ t : Fin cfg0.N, win0_9.index t (0 : Fin 2) = t.val ∧ win0_9.index t (1 : Fin 2) = 0 :=
  (by decide +kernel : ∀ t : Fin grid0.N, _)

/-- An index of the [32768, 1024] array is in point `t`'s block iff each coordinate is in the block's range. -/
theorem mem_out_block (t : Fin cfg0.N) (i : S32768x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v13).slice (win0_9.rect t)).set ↔ _
  rw [View.set_slice_whole, Rect.mem_set_unit]
  exact Iff.rfl

/-- Every index of the array is in the block of the point its row falls in. -/
theorem out_cover (i : S32768x1024.Idx) : ∃ t : Fin cfg0.N, (cfg0.win 9).flush t = true ∧ i ∈ ((cfg0.win 9).blk t).view.set := by
  have hN : grid0.N = 64 := N_0
  have h0 : (i 0).val < 32768 := (i 0).isLt
  have h1 : (i 1).val < 1024 := (i 1).isLt
  refine ⟨⟨(i 0).val / 512, by show (i 0).val / 512 < grid0.N; omega⟩, flush0_9 _, ?_⟩
  rw [mem_out_block]
  obtain ⟨e0, e1⟩ := out_index ⟨(i 0).val / 512, by show (i 0).val / 512 < grid0.N; omega⟩
  intro a
  match a with
  | ⟨0, _⟩ => show win0_9.index _ (0 : Fin 2) * 512 ≤ (i 0).val ∧ (i 0).val < win0_9.index _ (0 : Fin 2) * 512 + 512; rw [e0]; show (i 0).val / 512 * 512 ≤ (i 0).val ∧ (i 0).val < (i 0).val / 512 * 512 + 512; omega
  | ⟨1, _⟩ => show win0_9.index _ (1 : Fin 2) * 1024 ≤ (i 1).val ∧ (i 1).val < win0_9.index _ (1 : Fin 2) * 1024 + 1024; rw [e1]; omega

/-- The batch a row of the flattened input belongs to. -/
def batchOf (r : Fin 32768) : Fin 4 := ⟨r.val / 8192, by have := r.isLt; omega⟩

/-- A flattened row's position inside its batch. -/
def posOf (r : Fin 32768) : Fin 8192 := ⟨r.val % 8192, Nat.mod_lt _ (by decide)⟩

/-- The region's result: row `r`, column `f` is column `f` of the token of input row `(r / 8192, r % 8192)`. -/
def regionOut (x : (⟨3, ![4, 8192, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal) :
    (⟨2, ![32768, 1024]⟩ : Shape).Idx → EReal := fun i =>
  token (row x (batchOf (i 0)) (posOf (i 0))) (mat Wq) (vec bq) (mat Wk) (vec bk) (mat Wv) (vec bv) (mat Wo) (vec bo) (i 1)

/-- The region's result read as [4, 8192, 1024] is the whole specification. -/
theorem regionOut_reshaped (x : (⟨3, ![4, 8192, 1024]⟩ : Shape).Idx → EReal)
    (Wq : (⟨2, ![1024, 1024]⟩ : Shape).Idx → EReal) (bq : (⟨1, ![1024]⟩ : Shape).Idx → EReal)
    (Wk : (⟨2, ![1024, 1024]⟩ : Shape).Idx → EReal) (bk : (⟨1, ![1024]⟩ : Shape).Idx → EReal)
    (Wv : (⟨2, ![1024, 1024]⟩ : Shape).Idx → EReal) (bv : (⟨1, ![1024]⟩ : Shape).Idx → EReal)
    (Wo : (⟨2, ![1024, 1024]⟩ : Shape).Idx → EReal) (bo : (⟨1, ![1024]⟩ : Shape).Idx → EReal) :
    shapeCast S4x8192x1024 (regionOut x Wq bq Wk bk Wv bv Wo bo) shapeCasts_S32768x1024_S4x8192x1024
      = whole x Wq bq Wk bk Wv bv Wo bo := by
  funext i
  obtain ⟨b, s, f, rfl⟩ : ∃ (b : Fin 4) (s : Fin 8192) (f : Fin 1024), i = ix3 b s f := ⟨i 0, i 1, i 2, eq_ix3 i⟩
  have hb := b.isLt
  have hs := s.isLt
  refine (shapeCast_apply (regionOut x Wq bq Wk bk Wv bv Wo bo) shapeCasts_S32768x1024_S4x8192x1024 (ix3 b s f)
    (ix2 (⟨b.val * 8192 + s.val, by omega⟩ : Fin 32768) f) (by
      rw [Shape.rowMajor_val_two, Shape.rowMajor_val_three]
      show (b.val * 8192 + s.val) * 1024 + f.val = (b.val * 8192 + s.val) * 1024 + f.val
      rfl)).trans ?_
  have eb : batchOf (⟨b.val * 8192 + s.val, by omega⟩ : Fin 32768) = b := Fin.ext (by show (b.val * 8192 + s.val) / 8192 = b.val; omega)
  have es : posOf (⟨b.val * 8192 + s.val, by omega⟩ : Fin 32768) = s := Fin.ext (by show (b.val * 8192 + s.val) % 8192 = s.val; omega)
  show token (row x (batchOf (⟨b.val * 8192 + s.val, _⟩ : Fin 32768)) (posOf (⟨b.val * 8192 + s.val, _⟩ : Fin 32768))) (mat Wq) (vec bq) (mat Wk) (vec bk) (mat Wv) (vec bv) (mat Wo) (vec bo) f = _
  rw [eb, es]
  rfl

variable (m : (ℓ : Loc nD τ sig) → Buf (Elt Ideal) ℓ)

/-- What the program's result buffer holds after the reshape that follows the region: the region's final array, read as
    [4, 8192, 1024]. -/
theorem result_is_reshape (c : Dev nD) :
    (Pipeline.afterTail₀ cfgs (dats (F := Ideal) m) 0 (V0 m) [hostOps1] c main_v14 : S4x8192x1024.Idx → EReal)
      = shapeCast S4x8192x1024 ((dats (F := Ideal) m 0 c).arrAt 9 cfg0.N) shapeCasts_S32768x1024_S4x8192x1024 := by
  unfold Pipeline.afterTail₀
  show StableHlo.after hostOps1 _ (Proc.devRef .tc main_v14) = _
  after_results
  have hw := Pipeline.withArrays_arr spec0 launch0.win.arr_inj c (V0 m c) (fun w => (dats (F := Ideal) m 0 c).arrAt w (cfgs 0).N) 9
  funext i
  exact congrArg (fun a : S32768x1024.Idx → EReal => shapeCast S4x8192x1024 a shapeCasts_S32768x1024_S4x8192x1024 i) hw

end Cert.Attn.Kernel

end
-- ==== Proof.KernelInputs.lean ====
/-
  The kernel's input blocks, read off the arguments.

  Before the grid runs, the input `x : [4, 8192, 1024]` is flattened to `[32768, 1024]` (row `b·8192 + s` is token
  `(b, s)`), each weight `W : [1024, 1024]` is transposed, and each bias `[1024]` is given a leading unit axis. Grid
  point `t` (of 64) stages rows `512·t … 512·t + 511` of the flattened input, and the whole of every transposed weight
  and every bias. So row `p` of point `t`'s input block is token `((512·t + p) / 8192, (512·t + p) % 8192)` of `x`;
  entry `(e, f)` of a weight block is `W f e`; entry `(0, f)` of a bias block is `b f`.
-/
import proofs.«146372_j74466142978206_1_alg».proof.Proof.Gen.KernelIdeal.Frame
import Idealize.ShloMosaic.Lib.ValueIdx
import Idealize.ShloMosaic.Lib.ValueLayout
import Idealize.ShloMosaic.Lib.Pipeline.Value
import Idealize.ShloMosaic.Lib.StableHlo.Run

noncomputable section

namespace Cert.Attn.Kernel

open Cert.KernelIdeal Cert.KernelIdeal.Gen Idealize.ShloMosaic Idealize.ShloMosaic.TcCoe Idealize.ShloMosaic.ValueIdx
open Idealize.SL.Sem

variable (m : (ℓ : Loc nD τ sig) → Buf (Elt Ideal) ℓ)

/-! ## The input rows -/

/-- A grid point is one of 64. -/
theorem t_lt (t : Fin cfg0.N) : t.val < 64 := Nat.lt_of_lt_of_eq t.isLt Gen.N_0

/-- The batch of row `p` of grid point `t`'s block: `(512·t + p) / 8192`. -/
def rowB (t : Fin cfg0.N) (p : Fin 512) : Fin 4 :=
  ⟨(t.val * 512 + p.val) / 8192, by have := t_lt t; have := p.isLt; omega⟩

/-- The position of row `p` of grid point `t`'s block: `(512·t + p) % 8192`. -/
def rowS (t : Fin cfg0.N) (p : Fin 512) : Fin 8192 :=
  ⟨(t.val * 512 + p.val) % 8192, Nat.mod_lt _ (by decide)⟩

/-- The flattened input as the grid finds it: the argument reshaped to [32768, 1024]. -/
theorem v0_eq (c : Dev nD) : (V m c main_v0 : S32768x1024.Idx → EReal)
    = shapeCast S32768x1024 (m ((c : Thread nD τ).loc main_arg0) : S4x8192x1024.Idx → EReal) shapeCasts_S4x8192x1024_S32768x1024 := by
  show StableHlo.after hostOps0 (fun b => m (c, b)) (Proc.devRef .tc main_v0) = _
  after_results
  rfl

/-- Window 0's block at grid point `t` is block-row `t`, all columns. -/
theorem idx0 : ∀ t : Fin cfg0.N, win0_0.index t (0 : Fin 2) = t.val ∧ win0_0.index t (1 : Fin 2) = 0 :=
  (by decide +kernel : ∀ t : Fin grid0.N, _)

/-- Entry `(p, e)` of grid point `t`'s input block is entry `e` of token
    `((512·t + p) / 8192, (512·t + p) % 8192)` of the argument. -/
theorem x_block (c : Dev nD) (t : Fin cfg0.N) (p : Fin 512) (e : Fin 1024) :
    (iblk (F := Ideal) m c 0 t : S512x1024.Idx → EReal) (ix2 p e)
      = (m ((c : Thread nD τ).loc main_arg0) : S4x8192x1024.Idx → EReal) (ix3 (rowB t p) (rowS t p) e) := by
  have hi := idx0 t
  unfold iblk
  rw [View.read_apply]
  show (V m c main_v0 : S32768x1024.Idx → EReal) _ = _
  have ht := t_lt t
  have hp : p.val < 512 := p.isLt
  have hy : (((cfg0.win 0).blk t).view.emb (ix2 p e) : S32768x1024.Idx)
      = ix2 (⟨t.val * 512 + p.val, by omega⟩ : Fin 32768) e := by
    funext a
    apply Fin.ext
    match a with
    | ⟨0, _⟩ => show win0_0.index t (0 : Fin 2) * 512 + 1 * p.val = t.val * 512 + p.val; rw [hi.1]; omega
    | ⟨1, _⟩ => show win0_0.index t (1 : Fin 2) * 1024 + 1 * e.val = e.val; rw [hi.2]; omega
  rw [hy, v0_eq m c]
  refine shapeCast_apply _ shapeCasts_S4x8192x1024_S32768x1024 _ _ ?_
  rw [Shape.rowMajor_val_three, Shape.rowMajor_val_two]
  show ((t.val * 512 + p.val) / 8192 * 8192 + (t.val * 512 + p.val) % 8192) * 1024 + e.val
    = (t.val * 512 + p.val) * 1024 + e.val
  omega

/-! ## The weights -/

/-- the query weight as the grid finds it: the argument transposed. -/
theorem v2_eq (c : Dev nD) : (V m c main_v2 : S1024x1024.Idx → EReal)
    = (truncf (F := Ideal) .bf16 (transpose S1024x1024 [1, 0] (m ((c : Thread nD τ).loc main_arg1) : FVec Ideal S1024x1024 .f32) transposes_S1024x1024_S1024x1024_1_0) bitsLt_bf16_f32 : FVec Ideal S1024x1024 .bf16) := by
  show StableHlo.after hostOps0 (fun b => m (c, b)) (Proc.devRef .tc main_v2) = _
  after_results

/-- Window 1's block is the whole array at every grid point. -/
theorem idx1 : ∀ t : Fin cfg0.N, win0_1.index t (0 : Fin 2) = 0 ∧ win0_1.index t (1 : Fin 2) = 0 :=
  (by decide +kernel : ∀ t : Fin grid0.N, _)

/-- Entry `(e, f)` of the query weight's block, at any grid point, is entry `(f, e)` of the argument. -/
theorem wq_block (c : Dev nD) (t : Fin cfg0.N) (e f : Fin 1024) :
    (iblk (F := Ideal) m c 1 t : S1024x1024.Idx → EReal) (ix2 e f)
      = (m ((c : Thread nD τ).loc main_arg1) : S1024x1024.Idx → EReal) (ix2 f e) := by
  have hi := idx1 t
  unfold iblk
  rw [View.read_apply]
  show (V m c main_v2 : S1024x1024.Idx → EReal) _ = _
  have hy : (((cfg0.win 1).blk t).view.emb (ix2 e f) : S1024x1024.Idx) = ix2 e f := by
    funext a
    apply Fin.ext
    match a with
    | ⟨0, _⟩ => show win0_1.index t (0 : Fin 2) * 1024 + 1 * e.val = e.val; rw [hi.1]; omega
    | ⟨1, _⟩ => show win0_1.index t (1 : Fin 2) * 1024 + 1 * f.val = f.val; rw [hi.2]; omega
  rw [hy, v2_eq m c]
  exact ValueIdx.transpose_ix2_apply _ transposes_S1024x1024_S1024x1024_1_0 e f

/-- the key weight as the grid finds it: the argument transposed. -/
theorem v4_eq (c : Dev nD) : (V m c main_v4 : S1024x1024.Idx → EReal)
    = (truncf (F := Ideal) .bf16 (transpose S1024x1024 [1, 0] (m ((c : Thread nD τ).loc main_arg3) : FVec Ideal S1024x1024 .f32) transposes_S1024x1024_S1024x1024_1_0) bitsLt_bf16_f32 : FVec Ideal S1024x1024 .bf16) := by
  show StableHlo.after hostOps0 (fun b => m (c, b)) (Proc.devRef .tc main_v4) = _
  after_results

/-- Window 3's block is the whole array at every grid point. -/
theorem idx3 : ∀ t : Fin cfg0.N, win0_3.index t (0 : Fin 2) = 0 ∧ win0_3.index t (1 : Fin 2) = 0 :=
  (by decide +kernel : ∀ t : Fin grid0.N, _)

/-- Entry `(e, f)` of the key weight's block, at any grid point, is entry `(f, e)` of the argument. -/
theorem wk_block (c : Dev nD) (t : Fin cfg0.N) (e f : Fin 1024) :
    (iblk (F := Ideal) m c 3 t : S1024x1024.Idx → EReal) (ix2 e f)
      = (m ((c : Thread nD τ).loc main_arg3) : S1024x1024.Idx → EReal) (ix2 f e) := by
  have hi := idx3 t
  unfold iblk
  rw [View.read_apply]
  show (V m c main_v4 : S1024x1024.Idx → EReal) _ = _
  have hy : (((cfg0.win 3).blk t).view.emb (ix2 e f) : S1024x1024.Idx) = ix2 e f := by
    funext a
    apply Fin.ext
    match a with
    | ⟨0, _⟩ => show win0_3.index t (0 : Fin 2) * 1024 + 1 * e.val = e.val; rw [hi.1]; omega
    | ⟨1, _⟩ => show win0_3.index t (1 : Fin 2) * 1024 + 1 * f.val = f.val; rw [hi.2]; omega
  rw [hy, v4_eq m c]
  exact ValueIdx.transpose_ix2_apply _ transposes_S1024x1024_S1024x1024_1_0 e f

/-- the value weight as the grid finds it: the argument transposed. -/
theorem v6_eq (c : Dev nD) : (V m c main_v6 : S1024x1024.Idx → EReal)
    = (truncf (F := Ideal) .bf16 (transpose S1024x1024 [1, 0] (m ((c : Thread nD τ).loc main_arg5) : FVec Ideal S1024x1024 .f32) transposes_S1024x1024_S1024x1024_1_0) bitsLt_bf16_f32 : FVec Ideal S1024x1024 .bf16) := by
  show StableHlo.after hostOps0 (fun b => m (c, b)) (Proc.devRef .tc main_v6) = _
  after_results

/-- Window 5's block is the whole array at every grid point. -/
theorem idx5 : ∀ t : Fin cfg0.N, win0_5.index t (0 : Fin 2) = 0 ∧ win0_5.index t (1 : Fin 2) = 0 :=
  (by decide +kernel : ∀ t : Fin grid0.N, _)

/-- Entry `(e, f)` of the value weight's block, at any grid point, is entry `(f, e)` of the argument. -/
theorem wv_block (c : Dev nD) (t : Fin cfg0.N) (e f : Fin 1024) :
    (iblk (F := Ideal) m c 5 t : S1024x1024.Idx → EReal) (ix2 e f)
      = (m ((c : Thread nD τ).loc main_arg5) : S1024x1024.Idx → EReal) (ix2 f e) := by
  have hi := idx5 t
  unfold iblk
  rw [View.read_apply]
  show (V m c main_v6 : S1024x1024.Idx → EReal) _ = _
  have hy : (((cfg0.win 5).blk t).view.emb (ix2 e f) : S1024x1024.Idx) = ix2 e f := by
    funext a
    apply Fin.ext
    match a with
    | ⟨0, _⟩ => show win0_5.index t (0 : Fin 2) * 1024 + 1 * e.val = e.val; rw [hi.1]; omega
    | ⟨1, _⟩ => show win0_5.index t (1 : Fin 2) * 1024 + 1 * f.val = f.val; rw [hi.2]; omega
  rw [hy, v6_eq m c]
  exact ValueIdx.transpose_ix2_apply _ transposes_S1024x1024_S1024x1024_1_0 e f

/-- the output weight as the grid finds it: the argument transposed. -/
theorem v8_eq (c : Dev nD) : (V m c main_v8 : S1024x1024.Idx → EReal)
    = (truncf (F := Ideal) .bf16 (transpose S1024x1024 [1, 0] (m ((c : Thread nD τ).loc main_arg7) : FVec Ideal S1024x1024 .f32) transposes_S1024x1024_S1024x1024_1_0) bitsLt_bf16_f32 : FVec Ideal S1024x1024 .bf16) := by
  show StableHlo.after hostOps0 (fun b => m (c, b)) (Proc.devRef .tc main_v8) = _
  after_results

/-- Window 7's block is the whole array at every grid point. -/
theorem idx7 : ∀ t : Fin cfg0.N, win0_7.index t (0 : Fin 2) = 0 ∧ win0_7.index t (1 : Fin 2) = 0 :=
  (by decide +kernel : ∀ t : Fin grid0.N, _)

/-- Entry `(e, f)` of the output weight's block, at any grid point, is entry `(f, e)` of the argument. -/
theorem wo_block (c : Dev nD) (t : Fin cfg0.N) (e f : Fin 1024) :
    (iblk (F := Ideal) m c 7 t : S1024x1024.Idx → EReal) (ix2 e f)
      = (m ((c : Thread nD τ).loc main_arg7) : S1024x1024.Idx → EReal) (ix2 f e) := by
  have hi := idx7 t
  unfold iblk
  rw [View.read_apply]
  show (V m c main_v8 : S1024x1024.Idx → EReal) _ = _
  have hy : (((cfg0.win 7).blk t).view.emb (ix2 e f) : S1024x1024.Idx) = ix2 e f := by
    funext a
    apply Fin.ext
    match a with
    | ⟨0, _⟩ => show win0_7.index t (0 : Fin 2) * 1024 + 1 * e.val = e.val; rw [hi.1]; omega
    | ⟨1, _⟩ => show win0_7.index t (1 : Fin 2) * 1024 + 1 * f.val = f.val; rw [hi.2]; omega
  rw [hy, v8_eq m c]
  exact ValueIdx.transpose_ix2_apply _ transposes_S1024x1024_S1024x1024_1_0 e f

/-! ## The biases -/

/-- the query bias as the grid finds it: the argument with a leading unit axis. -/
theorem v9_eq (c : Dev nD) : (V m c main_v9 : S1x1024.Idx → EReal)
    = shapeCast S1x1024 (m ((c : Thread nD τ).loc main_arg2) : S1024.Idx → EReal) shapeCasts_S1024_S1x1024 := by
  show StableHlo.after hostOps0 (fun b => m (c, b)) (Proc.devRef .tc main_v9) = _
  after_results
  rfl

/-- Window 2's block is the whole array at every grid point. -/
theorem idx2 : ∀ t : Fin cfg0.N, win0_2.index t (0 : Fin 2) = 0 ∧ win0_2.index t (1 : Fin 2) = 0 :=
  (by decide +kernel : ∀ t : Fin grid0.N, _)

/-- Entry `(0, f)` of the query bias's block, at any grid point, is entry `f` of the argument. -/
theorem bq_block (c : Dev nD) (t : Fin cfg0.N) (f : Fin 1024) :
    (iblk (F := Ideal) m c 2 t : S1x1024.Idx → EReal) (ix2 (0 : Fin 1) f)
      = (m ((c : Thread nD τ).loc main_arg2) : S1024.Idx → EReal) (ix1 f) := by
  have hi := idx2 t
  unfold iblk
  rw [View.read_apply]
  show (V m c main_v9 : S1x1024.Idx → EReal) _ = _
  have hy : (((cfg0.win 2).blk t).view.emb (ix2 (0 : Fin 1) f) : S1x1024.Idx) = ix2 (0 : Fin 1) f := by
    funext a
    apply Fin.ext
    match a with
    | ⟨0, _⟩ => show win0_2.index t (0 : Fin 2) * 1 + 1 * (0 : Fin 1).val = (0 : Fin 1).val; rw [hi.1]; rfl
    | ⟨1, _⟩ => show win0_2.index t (1 : Fin 2) * 1024 + 1 * f.val = f.val; rw [hi.2]; omega
  rw [hy, v9_eq m c]
  exact ValueIdx.shapeCast_a_1a_apply _ shapeCasts_S1024_S1x1024 (0 : Fin 1) f

/-- the key bias as the grid finds it: the argument with a leading unit axis. -/
theorem v10_eq (c : Dev nD) : (V m c main_v10 : S1x1024.Idx → EReal)
    = shapeCast S1x1024 (m ((c : Thread nD τ).loc main_arg4) : S1024.Idx → EReal) shapeCasts_S1024_S1x1024 := by
  show StableHlo.after hostOps0 (fun b => m (c, b)) (Proc.devRef .tc main_v10) = _
  after_results
  rfl

/-- Window 4's block is the whole array at every grid point. -/
theorem idx4 : ∀ t : Fin cfg0.N, win0_4.index t (0 : Fin 2) = 0 ∧ win0_4.index t (1 : Fin 2) = 0 :=
  (by decide +kernel : ∀ t : Fin grid0.N, _)

/-- Entry `(0, f)` of the key bias's block, at any grid point, is entry `f` of the argument. -/
theorem bk_block (c : Dev nD) (t : Fin cfg0.N) (f : Fin 1024) :
    (iblk (F := Ideal) m c 4 t : S1x1024.Idx → EReal) (ix2 (0 : Fin 1) f)
      = (m ((c : Thread nD τ).loc main_arg4) : S1024.Idx → EReal) (ix1 f) := by
  have hi := idx4 t
  unfold iblk
  rw [View.read_apply]
  show (V m c main_v10 : S1x1024.Idx → EReal) _ = _
  have hy : (((cfg0.win 4).blk t).view.emb (ix2 (0 : Fin 1) f) : S1x1024.Idx) = ix2 (0 : Fin 1) f := by
    funext a
    apply Fin.ext
    match a with
    | ⟨0, _⟩ => show win0_4.index t (0 : Fin 2) * 1 + 1 * (0 : Fin 1).val = (0 : Fin 1).val; rw [hi.1]; rfl
    | ⟨1, _⟩ => show win0_4.index t (1 : Fin 2) * 1024 + 1 * f.val = f.val; rw [hi.2]; omega
  rw [hy, v10_eq m c]
  exact ValueIdx.shapeCast_a_1a_apply _ shapeCasts_S1024_S1x1024 (0 : Fin 1) f

/-- the value bias as the grid finds it: the argument with a leading unit axis. -/
theorem v11_eq (c : Dev nD) : (V m c main_v11 : S1x1024.Idx → EReal)
    = shapeCast S1x1024 (m ((c : Thread nD τ).loc main_arg6) : S1024.Idx → EReal) shapeCasts_S1024_S1x1024 := by
  show StableHlo.after hostOps0 (fun b => m (c, b)) (Proc.devRef .tc main_v11) = _
  after_results
  rfl

/-- Window 6's block is the whole array at every grid point. -/
theorem idx6 : ∀ t : Fin cfg0.N, win0_6.index t (0 : Fin 2) = 0 ∧ win0_6.index t (1 : Fin 2) = 0 :=
  (by decide +kernel : ∀ t : Fin grid0.N, _)

/-- Entry `(0, f)` of the value bias's block, at any grid point, is entry `f` of the argument. -/
theorem bv_block (c : Dev nD) (t : Fin cfg0.N) (f : Fin 1024) :
    (iblk (F := Ideal) m c 6 t : S1x1024.Idx → EReal) (ix2 (0 : Fin 1) f)
      = (m ((c : Thread nD τ).loc main_arg6) : S1024.Idx → EReal) (ix1 f) := by
  have hi := idx6 t
  unfold iblk
  rw [View.read_apply]
  show (V m c main_v11 : S1x1024.Idx → EReal) _ = _
  have hy : (((cfg0.win 6).blk t).view.emb (ix2 (0 : Fin 1) f) : S1x1024.Idx) = ix2 (0 : Fin 1) f := by
    funext a
    apply Fin.ext
    match a with
    | ⟨0, _⟩ => show win0_6.index t (0 : Fin 2) * 1 + 1 * (0 : Fin 1).val = (0 : Fin 1).val; rw [hi.1]; rfl
    | ⟨1, _⟩ => show win0_6.index t (1 : Fin 2) * 1024 + 1 * f.val = f.val; rw [hi.2]; omega
  rw [hy, v11_eq m c]
  exact ValueIdx.shapeCast_a_1a_apply _ shapeCasts_S1024_S1x1024 (0 : Fin 1) f

/-- the output bias as the grid finds it: the argument with a leading unit axis. -/
theorem v12_eq (c : Dev nD) : (V m c main_v12 : S1x1024.Idx → EReal)
    = shapeCast S1x1024 (m ((c : Thread nD τ).loc main_arg8) : S1024.Idx → EReal) shapeCasts_S1024_S1x1024 := by
  show StableHlo.after hostOps0 (fun b => m (c, b)) (Proc.devRef .tc main_v12) = _
  after_results
  rfl

/-- Window 8's block is the whole array at every grid point. -/
theorem idx8 : ∀ t : Fin cfg0.N, win0_8.index t (0 : Fin 2) = 0 ∧ win0_8.index t (1 : Fin 2) = 0 :=
  (by decide +kernel : ∀ t : Fin grid0.N, _)

/-- Entry `(0, f)` of the output bias's block, at any grid point, is entry `f` of the argument. -/
theorem bo_block (c : Dev nD) (t : Fin cfg0.N) (f : Fin 1024) :
    (iblk (F := Ideal) m c 8 t : S1x1024.Idx → EReal) (ix2 (0 : Fin 1) f)
      = (m ((c : Thread nD τ).loc main_arg8) : S1024.Idx → EReal) (ix1 f) := by
  have hi := idx8 t
  unfold iblk
  rw [View.read_apply]
  show (V m c main_v12 : S1x1024.Idx → EReal) _ = _
  have hy : (((cfg0.win 8).blk t).view.emb (ix2 (0 : Fin 1) f) : S1x1024.Idx) = ix2 (0 : Fin 1) f := by
    funext a
    apply Fin.ext
    match a with
    | ⟨0, _⟩ => show win0_8.index t (0 : Fin 2) * 1 + 1 * (0 : Fin 1).val = (0 : Fin 1).val; rw [hi.1]; rfl
    | ⟨1, _⟩ => show win0_8.index t (1 : Fin 2) * 1024 + 1 * f.val = f.val; rw [hi.2]; omega
  rw [hy, v12_eq m c]
  exact ValueIdx.shapeCast_a_1a_apply _ shapeCasts_S1024_S1x1024 (0 : Fin 1) f

end Cert.Attn.Kernel

end
-- ==== Proof.KernelArray.lean ====
/-
  The kernel's run, with its result named.

  At every grid point the block the body writes back is the block, at that point, of ONE array: row `r` of it is the token
  of input row `(r / 8192, r % 8192)`. This is because the input block at point `t` holds rows `t·512 … t·512 + 511` of the
  flattened input, the staged matrices are the transposed weights and the staged rows are the biases, whatever the point.
  The blocks cover the array, so the array ends as that function; the reshape after the region makes it the whole
  specification of the argument arrays.
-/
import proofs.«146372_j74466142978206_1_alg».proof.Proof.KernelToken
import proofs.«146372_j74466142978206_1_alg».proof.Proof.KernelOut
import proofs.«146372_j74466142978206_1_alg».proof.Proof.KernelInputs

set_option maxRecDepth 16384

noncomputable section

namespace Cert.Attn.Kernel

open Cert.KernelIdeal Cert.KernelIdeal.Gen Cert.Attn Idealize.ShloMosaic Idealize.ShloMosaic.TcCoe Idealize.ShloMosaic.ValueIdx Idealize.SL.Sem Idealize.ShloMosaic.StableHlo

/-- The stored block at any of its indices `j`: column `j 1` of the token of the input block's row `j 0`. -/
theorem stored_at (x0 : FVec Ideal S512x1024 .f32) (x1 : FVec Ideal S1024x1024 .bf16) (x2 : FVec Ideal S1x1024 .f32)
    (x3 : FVec Ideal S1024x1024 .bf16) (x4 : FVec Ideal S1x1024 .f32) (x5 : FVec Ideal S1024x1024 .bf16) (x6 : FVec Ideal S1x1024 .f32)
    (x7 : FVec Ideal S1024x1024 .bf16) (x8 : FVec Ideal S1x1024 .f32) (j : S512x1024.Idx) :
    k0_pay1 (F := Ideal) (k0_pay3 (F := Ideal) x0 x5 x6) (k0_pay4 (F := Ideal) x0 x1 x2 x3 x4) x7 x8 j
      = token (blockRow x0 (j 0)) (staged x1) (biasOf x2) (staged x3) (biasOf x4) (staged x5) (biasOf x6) (staged x7) (biasOf x8) (j 1) := by
  obtain ⟨p, f, rfl⟩ : ∃ (p : Fin 512) (f : Fin 1024), j = ix2 p f := ⟨j 0, j 1, eq_ix2 j⟩
  exact stored_apply x0 x1 x2 x3 x4 x5 x6 x7 x8 p f

variable (m : (ℓ : Loc nD τ sig) → Buf (Elt Ideal) ℓ)

/-- WHAT POINT `t` WRITES BACK is block `t` of the region's result array as a function of the argument arrays. -/
theorem flushed_eq (c : Dev nD) (t : Fin cfg0.N) :
    (dats (F := Ideal) m 0 c).flushed 9 t
      = ((cfg0.win 9).blk t).view.read (Elt Ideal) (regionOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  show (cfg0.win 9).cut (grid0.coords t) ((dats (F := Ideal) m 0 c).after 9 t) = _
  rw [after0_9]
  unfold out0_9
  rw [View.canon_unit_zero origin2]
  simp only [View.ld_unit_zero (S := S512x1024) origin2, View.ld_unit_zero (S := S1024x1024) origin2, View.ld_unit_zero (S := S1x1024) origin2]
  obtain ⟨e0, e1⟩ := out_index t
  funext j
  show k0_pay1 (F := Ideal) (k0_pay3 (F := Ideal) (iblk m c 0 t) (iblk m c 5 t) (iblk m c 6 t)) (k0_pay4 (F := Ideal) (iblk m c 0 t) (iblk m c 1 t) (iblk m c 2 t) (iblk m c 3 t) (iblk m c 4 t)) (iblk m c 7 t) (iblk m c 8 t) j
      = regionOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (((cfg0.win 9).blk t).view.emb j)
  refine (stored_at (iblk m c 0 t) (iblk m c 1 t) (iblk m c 2 t) (iblk m c 3 t) (iblk m c 4 t) (iblk m c 5 t) (iblk m c 6 t) (iblk m c 7 t) (iblk m c 8 t) j).trans ?_
  have hj0 : (j 0).val < 512 := (j 0).isLt
  have hr : ((((cfg0.win 9).blk t).view.emb j) 0).val = t.val * 512 + (j 0).val := by
    show win0_9.index t (0 : Fin 2) * 512 + 1 * (j 0).val = _
    rw [e0]; omega
  have hc : (((cfg0.win 9).blk t).view.emb j) 1 = j 1 := Fin.ext (by
    show win0_9.index t (1 : Fin 2) * 1024 + 1 * (j 1).val = (j 1).val
    rw [e1]; omega)
  have h0 : blockRow (iblk m c 0 t) (j 0) = row (m ((c : Thread nD τ).loc main_arg0)) (batchOf ((((cfg0.win 9).blk t).view.emb j) 0)) (posOf ((((cfg0.win 9).blk t).view.emb j) 0)) :=
    funext fun e => (x_block m c t (j 0) e).trans (congrArg (m ((c : Thread nD τ).loc main_arg0)) (by
      have eb : rowB t (j 0) = batchOf ((((cfg0.win 9).blk t).view.emb j) 0) := Fin.ext (by
        show (t.val * 512 + (j 0).val) / 8192 = ((((cfg0.win 9).blk t).view.emb j) 0).val / 8192; rw [hr])
      have es : rowS t (j 0) = posOf ((((cfg0.win 9).blk t).view.emb j) 0) := Fin.ext (by
        show (t.val * 512 + (j 0).val) % 8192 = ((((cfg0.win 9).blk t).view.emb j) 0).val % 8192; rw [hr])
      rw [eb, es]))
  have h1 : staged (iblk m c 1 t) = mat (m ((c : Thread nD τ).loc main_arg1)) := funext fun f => funext fun e => wq_block m c t e f
  have h2 : biasOf (iblk m c 2 t) = vec (m ((c : Thread nD τ).loc main_arg2)) := funext fun f => bq_block m c t f
  have h3 : staged (iblk m c 3 t) = mat (m ((c : Thread nD τ).loc main_arg3)) := funext fun f => funext fun e => wk_block m c t e f
  have h4 : biasOf (iblk m c 4 t) = vec (m ((c : Thread nD τ).loc main_arg4)) := funext fun f => bk_block m c t f
  have h5 : staged (iblk m c 5 t) = mat (m ((c : Thread nD τ).loc main_arg5)) := funext fun f => funext fun e => wv_block m c t e f
  have h6 : biasOf (iblk m c 6 t) = vec (m ((c : Thread nD τ).loc main_arg6)) := funext fun f => bv_block m c t f
  have h7 : staged (iblk m c 7 t) = mat (m ((c : Thread nD τ).loc main_arg7)) := funext fun f => funext fun e => wo_block m c t e f
  have h8 : biasOf (iblk m c 8 t) = vec (m ((c : Thread nD τ).loc main_arg8)) := funext fun f => bo_block m c t f
  rw [h0, h1, h2, h3, h4, h5, h6, h7, h8]
  show _ = token (row (m ((c : Thread nD τ).loc main_arg0)) (batchOf ((((cfg0.win 9).blk t).view.emb j) 0)) (posOf ((((cfg0.win 9).blk t).view.emb j) 0)))
      (mat (m ((c : Thread nD τ).loc main_arg1))) (vec (m ((c : Thread nD τ).loc main_arg2))) (mat (m ((c : Thread nD τ).loc main_arg3))) (vec (m ((c : Thread nD τ).loc main_arg4))) (mat (m ((c : Thread nD τ).loc main_arg5))) (vec (m ((c : Thread nD τ).loc main_arg6))) (mat (m ((c : Thread nD τ).loc main_arg7))) (vec (m ((c : Thread nD τ).loc main_arg8))) ((((cfg0.win 9).blk t).view.emb j) 1)
  rw [hc]

/-- THE ARRAY the region leaves: the blocks cover it, so it is that function of the argument arrays. -/
theorem final_array (c : Dev nD) :
    (dats (F := Ideal) m 0 c).arrAt 9 cfg0.N = regionOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats (F := Ideal) m 0 c).arrAt_eq_of_cover 9 (regionOut (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed_eq m c t) out_cover

/-- The program's result buffer after the run: the whole specification of the argument arrays. -/
theorem result_eq (c : Dev nD) :
    (Pipeline.afterTail₀ cfgs (dats (F := Ideal) m) 0 (V0 m) [hostOps1] c main_v14 : S4x8192x1024.Idx → EReal)
      = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  rw [result_is_reshape, final_array]
  exact regionOut_reshaped _ _ _ _ _ _ _ _ _

/-- Every weakly fair execution of the kernel's program terminates with the result buffer at the whole specification of the
    argument arrays and the argument arrays unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v14) = whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v14 (Pipeline.mem_restRefs_of main_v14 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c)⟩)
    (run_main m ρ)

end Cert.Attn.Kernel

end
-- ==== Proof.RefToken.lean ====
/-
  The reference program, read token by token.

  Every intermediate array of the reference program is read at explicit coordinates — batch `b`, position `s`, heads
  `h`, `g`, a place `d` inside a head, columns `f`, `e` — as the matching quantity of the one-token specification:
  the three linear layers give the query, key and value rows of token `(b, s)`; the reshapes read column `h·64 + d`;
  the first batched product divided by 8 is the score; the max-reduce, the subtraction, the exponential, the sum and
  the quotient are the softmax of a row of 16 scores; the second batched product and the reshape back give the mixed
  row; the last linear layer gives the token. The final theorem states that the whole result is `whole`.
-/
import proofs.«146372_j74466142978206_1_alg».proof.Proof.Gen.ReferenceIdeal.Read
import proofs.«146372_j74466142978206_1_alg».proof.Proof.Spec
import Idealize.ShloMosaic.Lib.ValueIdx
import Idealize.ShloMosaic.Lib.Pipeline.Value
import Idealize.ShloMosaic.PureOps.Ideal.Laws
import Idealize.ShloMosaic.PureOps.Reduce

noncomputable section

namespace Cert.Attn.Ref

open Idealize.ShloMosaic Idealize.ShloMosaic.ValueIdx Cert.ReferenceIdeal Cert.ReferenceIdeal.Read Cert.Attn

/-- The type of the [4, 8192, 1024] input. -/
abbrev TX := (⟨S4x8192x1024, .f32⟩ : BufTy).Contents (Elt Ideal)
/-- The type of a [1024, 1024] weight. -/
abbrev TW := (⟨S1024x1024, .f32⟩ : BufTy).Contents (Elt Ideal)
/-- The type of a [1024] bias. -/
abbrev TB := (⟨S1024, .f32⟩ : BufTy).Contents (Elt Ideal)

/-- Two rank-1 indices with the same coordinate are equal. -/
theorem ext1 {n0 : Nat} (i j : (⟨1, ![n0]⟩ : Shape).Idx) (h0 : i 0 = j 0) : i = j :=
  funext fun a => match a with | ⟨0, _⟩ => h0

/-- Two rank-2 indices with the same coordinates are equal. -/
theorem ext2 {n0 n1 : Nat} (i j : (⟨2, ![n0, n1]⟩ : Shape).Idx) (h0 : i 0 = j 0) (h1 : i 1 = j 1) : i = j :=
  funext fun a => match a with | ⟨0, _⟩ => h0 | ⟨1, _⟩ => h1

/-- Two rank-3 indices with the same coordinates are equal. -/
theorem ext3 {n0 n1 n2 : Nat} (i j : (⟨3, ![n0, n1, n2]⟩ : Shape).Idx) (h0 : i 0 = j 0) (h1 : i 1 = j 1)
    (h2 : i 2 = j 2) : i = j :=
  funext fun a => match a with | ⟨0, _⟩ => h0 | ⟨1, _⟩ => h1 | ⟨2, _⟩ => h2

/-- Two rank-4 indices with the same coordinates are equal. -/
theorem ext4 {n0 n1 n2 n3 : Nat} (i j : (⟨4, ![n0, n1, n2, n3]⟩ : Shape).Idx) (h0 : i 0 = j 0) (h1 : i 1 = j 1)
    (h2 : i 2 = j 2) (h3 : i 3 = j 3) : i = j :=
  funext fun a => match a with | ⟨0, _⟩ => h0 | ⟨1, _⟩ => h1 | ⟨2, _⟩ => h2 | ⟨3, _⟩ => h3

/-! ## The three input layers -/

/-- The query layer at `(b, s, f)` is the linear layer of row `(b, s)` at column `f`. -/
theorem v3_at (x0 : TX) (x1 : TW) (x2 : TB) (b : Fin 4) (s : Fin 8192) (f : Fin 1024) :
    val_main_v3 (F := Ideal) x0 x1 x2 (ix3 b s f) = lin (row x0 b s) (mat x1) (vec x2) f := by
  rw [val_main_v3_apply, val_main_v0_apply, val_main_v2_apply, val_main_v1_apply, Ideal.addf_def]
  have el : ∀ k : Fin 1024, lidx_main_v0 (ix3 b s f) k = ix3 b s k := fun k => ext3 _ _ rfl rfl rfl
  have er : ∀ k : Fin 1024, ridx_main_v0 (ix3 b s f) k = ix2 f k := fun k => ext2 _ _ rfl rfl
  have eb : idx_main_v1 (idx_main_v2 (ix3 b s f)) = ix1 f := ext1 _ _ rfl
  simp only [el, er, eb]
  rfl

/-- The key layer at `(b, s, f)` is the linear layer of row `(b, s)` at column `f`. -/
theorem v8_at (x0 : TX) (x3 : TW) (x4 : TB) (b : Fin 4) (s : Fin 8192) (f : Fin 1024) :
    val_main_v8 (F := Ideal) x0 x3 x4 (ix3 b s f) = lin (row x0 b s) (mat x3) (vec x4) f := by
  rw [val_main_v8_apply, val_main_v5_apply, val_main_v7_apply, val_main_v6_apply, Ideal.addf_def]
  have el : ∀ k : Fin 1024, lidx_main_v5 (ix3 b s f) k = ix3 b s k := fun k => ext3 _ _ rfl rfl rfl
  have er : ∀ k : Fin 1024, ridx_main_v5 (ix3 b s f) k = ix2 f k := fun k => ext2 _ _ rfl rfl
  have eb : idx_main_v6 (idx_main_v7 (ix3 b s f)) = ix1 f := ext1 _ _ rfl
  simp only [el, er, eb]
  rfl

/-- The value layer at `(b, s, f)` is the linear layer of row `(b, s)` at column `f`. -/
theorem v13_at (x0 : TX) (x5 : TW) (x6 : TB) (b : Fin 4) (s : Fin 8192) (f : Fin 1024) :
    val_main_v13 (F := Ideal) x0 x5 x6 (ix3 b s f) = lin (row x0 b s) (mat x5) (vec x6) f := by
  rw [val_main_v13_apply, val_main_v10_apply, val_main_v12_apply, val_main_v11_apply, Ideal.addf_def]
  have el : ∀ k : Fin 1024, lidx_main_v10 (ix3 b s f) k = ix3 b s k := fun k => ext3 _ _ rfl rfl rfl
  have er : ∀ k : Fin 1024, ridx_main_v10 (ix3 b s f) k = ix2 f k := fun k => ext2 _ _ rfl rfl
  have eb : idx_main_v11 (idx_main_v12 (ix3 b s f)) = ix1 f := ext1 _ _ rfl
  simp only [el, er, eb]
  rfl

/-! ## Reading a 1024-wide row as 16 heads of 64 -/

/-- The flat position of `(b, s, h, d)` in a [4, 8192, 16, 64] array is that of `(b, s, h·64 + d)` in a
    [4, 8192, 1024] array: its three coordinates. -/
theorem split_flat (b : Fin 4) (s : Fin 8192) (h : Fin 16) (d : Fin 64) :
    (((b.val * 8192 + s.val) * 16 + h.val) * 64 + d.val) / 8388608 = b.val ∧
    (((b.val * 8192 + s.val) * 16 + h.val) * 64 + d.val) / 1024 % 8192 = s.val ∧
    (((b.val * 8192 + s.val) * 16 + h.val) * 64 + d.val) % 1024 = h.val * 64 + d.val := by
  have := b.isLt; have := s.isLt; have := h.isLt; have := d.isLt
  omega

/-- The reshape to heads reads `(b, s, h, d)` at `(b, s, h·64 + d)` (queries). -/
theorem idx_v4_at (b : Fin 4) (s : Fin 8192) (h : Fin 16) (d : Fin 64) :
    idx_main_v4 (ix4 b s h d) = ix3 b s (col h d) :=
  ext3 _ _ (Fin.ext (split_flat b s h d).1) (Fin.ext (split_flat b s h d).2.1) (Fin.ext (split_flat b s h d).2.2)

/-- The reshape to heads reads `(b, s, h, d)` at `(b, s, h·64 + d)` (keys). -/
theorem idx_v9_at (b : Fin 4) (s : Fin 8192) (h : Fin 16) (d : Fin 64) :
    idx_main_v9 (ix4 b s h d) = ix3 b s (col h d) :=
  ext3 _ _ (Fin.ext (split_flat b s h d).1) (Fin.ext (split_flat b s h d).2.1) (Fin.ext (split_flat b s h d).2.2)

/-- The reshape to heads reads `(b, s, h, d)` at `(b, s, h·64 + d)` (values). -/
theorem idx_v14_at (b : Fin 4) (s : Fin 8192) (h : Fin 16) (d : Fin 64) :
    idx_main_v14 (ix4 b s h d) = ix3 b s (col h d) :=
  ext3 _ _ (Fin.ext (split_flat b s h d).1) (Fin.ext (split_flat b s h d).2.1) (Fin.ext (split_flat b s h d).2.2)

/-- Entry `d` of head `h` of the queries of token `(b, s)`. -/
theorem v4_at (x0 : TX) (x1 : TW) (x2 : TB) (b : Fin 4) (s : Fin 8192) (h : Fin 16) (d : Fin 64) :
    val_main_v4 (F := Ideal) x0 x1 x2 (ix4 b s h d) = lin (row x0 b s) (mat x1) (vec x2) (col h d) := by
  rw [val_main_v4_apply, idx_v4_at, v3_at]

/-- Entry `d` of head `h` of the keys of token `(b, s)`. -/
theorem v9_at (x0 : TX) (x3 : TW) (x4 : TB) (b : Fin 4) (s : Fin 8192) (h : Fin 16) (d : Fin 64) :
    val_main_v9 (F := Ideal) x0 x3 x4 (ix4 b s h d) = lin (row x0 b s) (mat x3) (vec x4) (col h d) := by
  rw [val_main_v9_apply, idx_v9_at, v8_at]

/-- Entry `d` of head `h` of the values of token `(b, s)`. -/
theorem v14_at (x0 : TX) (x5 : TW) (x6 : TB) (b : Fin 4) (s : Fin 8192) (h : Fin 16) (d : Fin 64) :
    val_main_v14 (F := Ideal) x0 x5 x6 (ix4 b s h d) = lin (row x0 b s) (mat x5) (vec x6) (col h d) := by
  rw [val_main_v14_apply, idx_v14_at, v13_at]

/-! ## The scores -/

/-- The first batched product divided by 8, at `(b, s, h, g)`, is the score of head `h` against head `g`. -/
theorem v17_at (x0 : TX) (x1 : TW) (x2 : TB) (x3 : TW) (x4 : TB) (b : Fin 4) (s : Fin 8192) (h g : Fin 16) :
    val_main_v17 (F := Ideal) x0 x1 x2 x3 x4 (ix4 b s h g)
      = score (lin (row x0 b s) (mat x1) (vec x2)) (lin (row x0 b s) (mat x3) (vec x4)) h g := by
  rw [val_main_v17_apply, val_main_v16_apply, val_main_cst_apply, Ideal.hostDivf_def, Ideal.ofBits_def, div_eight,
    val_main_v15_apply]
  have el : ∀ k : Fin 64, lidx_main_v15 (ix4 b s h g) k = ix4 b s h k := fun k => ext4 _ _ rfl rfl rfl rfl
  have er : ∀ k : Fin 64, ridx_main_v15 (ix4 b s h g) k = ix4 b s g k := fun k => ext4 _ _ rfl rfl rfl rfl
  simp only [el, er, v4_at, v9_at]
  rfl

/-! ## The softmax of a row of scores -/

/-- The reduced index `(b, s, h)` with `k` put back on the last axis is `(b, s, h, k)`. -/
theorem lift_at (hr : S4x8192x16x16.Reduces [3] S4x8192x16) (b : Fin 4) (s : Fin 8192) (h : Fin 16)
    (k : Fin (S4x8192x16x16.size 3)) : hr.lift (ix3 b s h) k = ix4 b s h (⟨k.val, k.isLt⟩ : Fin 16) := by
  funext c; apply Fin.ext
  fin_cases c <;> rfl

/-- The max-reduce over the last axis, at `(b, s, h)`, is the fold of `max` from minus infinity over the 16 scores
    of head `h`. -/
theorem v18_at (x0 : TX) (x1 : TW) (x2 : TB) (x3 : TW) (x4 : TB) (b : Fin 4) (s : Fin 8192) (h : Fin 16) :
    val_main_v18 (F := Ideal) x0 x1 x2 x3 x4 (ix3 b s h)
      = (Finset.univ : Finset (Fin 16)).fold max negInf
          (score (lin (row x0 b s) (mat x1) (vec x2)) (lin (row x0 b s) (mat x3) (vec x4)) h) := by
  have hr : S4x8192x16x16.Reduces [3] S4x8192x16 := by decide
  unfold val_main_v18
  rw [Host.reduce_eq_fold_single FloatOps.maximumf _ _ _ hr]
  have hf : (val_main_v17 (F := Ideal) x0 x1 x2 x3 x4 ∘ hr.lift (ix3 b s h))
      = score (lin (row x0 b s) (mat x1) (vec x2)) (lin (row x0 b s) (mat x3) (vec x4)) h := funext fun k => by
    show val_main_v17 (F := Ideal) x0 x1 x2 x3 x4 (hr.lift (ix3 b s h) k) = _
    rw [lift_at, v17_at]
    rfl
  rw [hf]
  rfl

/-- The row maximum as the program takes it, at `(b, s, h)`. -/
theorem v20_at (x0 : TX) (x1 : TW) (x2 : TB) (x3 : TW) (x4 : TB) (b : Fin 4) (s : Fin 8192) (h : Fin 16) :
    val_main_v20 (F := Ideal) x0 x1 x2 x3 x4 (ix3 b s h)
      = top (score (lin (row x0 b s) (mat x1) (vec x2)) (lin (row x0 b s) (mat x3) (vec x4)) h) := by
  rw [val_main_v20_apply, val_main_v19_apply, val_main_cst_1_apply, v18_at, Ideal.maximumf_def, Ideal.ofBits_def]
  rfl

/-- The row maximum broadcast back over the last axis. -/
theorem v22_at (x0 : TX) (x1 : TW) (x2 : TB) (x3 : TW) (x4 : TB) (b : Fin 4) (s : Fin 8192) (h g : Fin 16) :
    val_main_v22 (F := Ideal) x0 x1 x2 x3 x4 (ix4 b s h g)
      = top (score (lin (row x0 b s) (mat x1) (vec x2)) (lin (row x0 b s) (mat x3) (vec x4)) h) := by
  rw [val_main_v22_apply, val_main_v21_apply]
  have e : idx_main_v21 (idx_main_v22 (ix4 b s h g)) = ix3 b s h := ext3 _ _ rfl rfl rfl
  rw [e, v20_at]

/-- The exponential of a score less its row's maximum. -/
theorem v24_at (x0 : TX) (x1 : TW) (x2 : TB) (x3 : TW) (x4 : TB) (b : Fin 4) (s : Fin 8192) (h g : Fin 16) :
    val_main_v24 (F := Ideal) x0 x1 x2 x3 x4 (ix4 b s h g)
      = ex (score (lin (row x0 b s) (mat x1) (vec x2)) (lin (row x0 b s) (mat x3) (vec x4)) h) g := by
  rw [val_main_v24_apply, val_main_v23_apply, v17_at, v22_at, Ideal.hostUnary_exp_def, Ideal.subf_def]
  rfl

/-- The row's sum of exponentials, at `(b, s, h)`. -/
theorem v25_at (x0 : TX) (x1 : TW) (x2 : TB) (x3 : TW) (x4 : TB) (b : Fin 4) (s : Fin 8192) (h : Fin 16) :
    val_main_v25 (F := Ideal) x0 x1 x2 x3 x4 (ix3 b s h)
      = ∑ g : Fin 16, ex (score (lin (row x0 b s) (mat x1) (vec x2)) (lin (row x0 b s) (mat x3) (vec x4)) h) g := by
  rw [val_main_v25_apply, val_main_cst_2_apply, Ideal.ofBits_def, Ideal.ofBits_zero_f32, zero_add]
  have e : ∀ k : Fin 16, idx_main_v25 (ix3 b s h) k = ix4 b s h k := fun k => ext4 _ _ rfl rfl rfl rfl
  simp only [e, v24_at]

/-- The softmax, at `(b, s, h, g)`. -/
theorem v28_at (x0 : TX) (x1 : TW) (x2 : TB) (x3 : TW) (x4 : TB) (b : Fin 4) (s : Fin 8192) (h g : Fin 16) :
    val_main_v28 (F := Ideal) x0 x1 x2 x3 x4 (ix4 b s h g)
      = prob (score (lin (row x0 b s) (mat x1) (vec x2)) (lin (row x0 b s) (mat x3) (vec x4)) h) g := by
  rw [val_main_v28_apply, val_main_v27_apply, val_main_v26_apply, v24_at, Ideal.hostDivf_def]
  have e : idx_main_v26 (idx_main_v27 (ix4 b s h g)) = ix3 b s h := ext3 _ _ rfl rfl rfl
  rw [e, v25_at]
  rfl

/-! ## The mixed row and the output layer -/

/-- The second batched product, at `(b, s, h, d)`: the probabilities of head `h` against the values' entry `d`. -/
theorem v29_at (x0 : TX) (x1 : TW) (x2 : TB) (x3 : TW) (x4 : TB) (x5 : TW) (x6 : TB) (b : Fin 4) (s : Fin 8192)
    (h : Fin 16) (d : Fin 64) :
    val_main_v29 (F := Ideal) x0 x1 x2 x3 x4 x5 x6 (ix4 b s h d)
      = ∑ g : Fin 16, prob (score (lin (row x0 b s) (mat x1) (vec x2)) (lin (row x0 b s) (mat x3) (vec x4)) h) g
          * lin (row x0 b s) (mat x5) (vec x6) (col g d) := by
  rw [val_main_v29_apply]
  have el : ∀ k : Fin 16, lidx_main_v29 (ix4 b s h d) k = ix4 b s h k := fun k => ext4 _ _ rfl rfl rfl rfl
  have er : ∀ k : Fin 16, ridx_main_v29 (ix4 b s h d) k = ix4 b s k d := fun k => ext4 _ _ rfl rfl rfl rfl
  simp only [el, er, v28_at, v14_at]

/-- The flat position of `(b, s, e)` in a [4, 8192, 1024] array is that of `(b, s, e / 64, e % 64)` in a
    [4, 8192, 16, 64] array: its four coordinates. -/
theorem join_flat (b : Fin 4) (s : Fin 8192) (e : Fin 1024) :
    ((b.val * 8192 + s.val) * 1024 + e.val) / 8388608 = b.val ∧
    ((b.val * 8192 + s.val) * 1024 + e.val) / 1024 % 8192 = s.val ∧
    ((b.val * 8192 + s.val) * 1024 + e.val) / 64 % 16 = e.val / 64 ∧
    ((b.val * 8192 + s.val) * 1024 + e.val) % 64 = e.val % 64 := by
  have := b.isLt; have := s.isLt; have := e.isLt
  omega

/-- The reshape back to a 1024-wide row reads `(b, s, e)` at `(b, s, head of e, place of e in its head)`. -/
theorem idx_v30_at (b : Fin 4) (s : Fin 8192) (e : Fin 1024) :
    idx_main_v30 (ix3 b s e) = ix4 b s (headOf e) (offOf e) :=
  ext4 _ _ (Fin.ext (join_flat b s e).1) (Fin.ext (join_flat b s e).2.1) (Fin.ext (join_flat b s e).2.2.1)
    (Fin.ext (join_flat b s e).2.2.2)

/-- The mixed row of token `(b, s)` at column `e`. -/
theorem v30_at (x0 : TX) (x1 : TW) (x2 : TB) (x3 : TW) (x4 : TB) (x5 : TW) (x6 : TB) (b : Fin 4) (s : Fin 8192)
    (e : Fin 1024) :
    val_main_v30 (F := Ideal) x0 x1 x2 x3 x4 x5 x6 (ix3 b s e)
      = mixed (lin (row x0 b s) (mat x1) (vec x2)) (lin (row x0 b s) (mat x3) (vec x4))
          (lin (row x0 b s) (mat x5) (vec x6)) e := by
  rw [val_main_v30_apply, idx_v30_at, v29_at]
  rfl

/-- The output layer at `(b, s, f)` is column `f` of the token computed from row `(b, s)`. -/
theorem v34_at (x0 : TX) (x1 : TW) (x2 : TB) (x3 : TW) (x4 : TB) (x5 : TW) (x6 : TB) (x7 : TW) (x8 : TB)
    (b : Fin 4) (s : Fin 8192) (f : Fin 1024) :
    val_main_v34 (F := Ideal) x0 x1 x2 x3 x4 x5 x6 x7 x8 (ix3 b s f)
      = token (row x0 b s) (mat x1) (vec x2) (mat x3) (vec x4) (mat x5) (vec x6) (mat x7) (vec x8) f := by
  rw [val_main_v34_apply, val_main_v31_apply, val_main_v33_apply, val_main_v32_apply, Ideal.addf_def]
  have el : ∀ k : Fin 1024, lidx_main_v31 (ix3 b s f) k = ix3 b s k := fun k => ext3 _ _ rfl rfl rfl
  have er : ∀ k : Fin 1024, ridx_main_v31 (ix3 b s f) k = ix2 f k := fun k => ext2 _ _ rfl rfl
  have eb : idx_main_v32 (idx_main_v33 (ix3 b s f)) = ix1 f := ext1 _ _ rfl
  simp only [el, er, eb, v30_at]
  rfl

/-- The reference program computes, at every index, the one-token specification of that index's input row. -/
theorem reference_eq (x0 : (⟨Cert.ReferenceIdeal.S4x8192x1024, .f32⟩ : BufTy).Contents (Elt Ideal))
    (x1 : (⟨Cert.ReferenceIdeal.S1024x1024, .f32⟩ : BufTy).Contents (Elt Ideal))
    (x2 : (⟨Cert.ReferenceIdeal.S1024, .f32⟩ : BufTy).Contents (Elt Ideal))
    (x3 : (⟨Cert.ReferenceIdeal.S1024x1024, .f32⟩ : BufTy).Contents (Elt Ideal))
    (x4 : (⟨Cert.ReferenceIdeal.S1024, .f32⟩ : BufTy).Contents (Elt Ideal))
    (x5 : (⟨Cert.ReferenceIdeal.S1024x1024, .f32⟩ : BufTy).Contents (Elt Ideal))
    (x6 : (⟨Cert.ReferenceIdeal.S1024, .f32⟩ : BufTy).Contents (Elt Ideal))
    (x7 : (⟨Cert.ReferenceIdeal.S1024x1024, .f32⟩ : BufTy).Contents (Elt Ideal))
    (x8 : (⟨Cert.ReferenceIdeal.S1024, .f32⟩ : BufTy).Contents (Elt Ideal)) :
    Cert.ReferenceIdeal.Read.val_main_v34 (F := Ideal) x0 x1 x2 x3 x4 x5 x6 x7 x8
      = Cert.Attn.whole x0 x1 x2 x3 x4 x5 x6 x7 x8 := by
  funext i
  obtain ⟨b, s, f, rfl⟩ : ∃ (b : Fin 4) (s : Fin 8192) (f : Fin 1024), i = ix3 b s f := ⟨i 0, i 1, i 2, eq_ix3 i⟩
  rw [v34_at]
  rfl

end Cert.Attn.Ref

end
-- ==== Proof.lean ====
/-
  The kernel computes, for every token of a [4, 8192, 1024] input, multi-head attention without the head transpose: three
  linear layers give queries, keys and values; each token's 16 heads of 64 entries are scored against each other (dot
  product times one eighth), each row of 16 scores goes through a softmax, the heads are mixed by those weights, and a
  fourth linear layer gives the result. The kernel does this on 64 blocks of 512 flattened rows, with the weights
  transposed beforehand; the reference does it on the whole arrays, dividing the scores by 8.

  On the extended reals both results are ONE function of the argument arrays (`Cert.Attn.whole`, Proof/Spec.lean):
  a sum into a zero accumulator is the sum, the tiling of rows changes no row, reading a flattened row `b·8192 + s` back as
  `(b, s)` is exact, and multiplying by the float 0.125 is dividing by the float 8 on every extended real. Nothing here
  needs the entries to be finite, so the precondition is never opened.

  The kernel's side is Proof/KernelDots.lean (matrix products at an entry), Proof/KernelLayout.lean (reshapes, broadcasts and
  lane reductions at an entry), Proof/KernelToken.lean (a stored block's row is the token of the input block's row),
  Proof/KernelInputs.lean (what the input blocks hold), Proof/KernelOut.lean and Proof/KernelArray.lean (the blocks cover the
  result, and the run). The reference's side is Proof/RefToken.lean. The kernel's idealization rewrote nothing, so the
  word-level kernel and the idealized one are related by the empty list of rewrites.
-/
import proofs.«146372_j74466142978206_1_alg».proof.Defs
import proofs.«146372_j74466142978206_1_alg».proof.Proof.Gen.Kernel
import proofs.«146372_j74466142978206_1_alg».proof.Proof.Gen.Kernel.Skeleton
import proofs.«146372_j74466142978206_1_alg».proof.Proof.Gen.Kernel.Launch
import proofs.«146372_j74466142978206_1_alg».proof.Proof.Gen.Kernel.Points
import proofs.«146372_j74466142978206_1_alg».proof.Proof.Gen.Kernel.Frame
import proofs.«146372_j74466142978206_1_alg».proof.Proof.Gen.KernelIdeal
import proofs.«146372_j74466142978206_1_alg».proof.Proof.Gen.KernelIdeal.Skeleton
import proofs.«146372_j74466142978206_1_alg».proof.Proof.Gen.KernelIdeal.Launch
import proofs.«146372_j74466142978206_1_alg».proof.Proof.Gen.KernelIdeal.Points
import proofs.«146372_j74466142978206_1_alg».proof.Proof.Gen.KernelIdeal.Frame
import proofs.«146372_j74466142978206_1_alg».proof.Proof.Gen.ReferenceIdeal
import proofs.«146372_j74466142978206_1_alg».proof.Proof.Gen.Pre_finite_inputs
import proofs.«146372_j74466142978206_1_alg».proof.Proof.Gen.ReferenceIdeal.Run
import proofs.«146372_j74466142978206_1_alg».proof.Proof.Gen.ReferenceIdeal.Read
import proofs.«146372_j74466142978206_1_alg».proof.Proof.KernelArray
import proofs.«146372_j74466142978206_1_alg».proof.Proof.RefToken
import Idealize.ShloMosaic.Adequacy
import Idealize.ShloMosaic.Init

noncomputable section

namespace Cert.Proof

open Idealize.ShloMosaic Idealize.SL.Sem

/-- The word-level kernel terminates, faults nowhere and keeps its arguments. -/
theorem frame_kernel : Cert.frame_Kernel := fun m ρ _ => Cert.Kernel.Gen.frame m ρ

/-- So does the idealized kernel. -/
theorem frame_ideal : Cert.frame_KernelIdeal := fun m ρ _ => Cert.KernelIdeal.Gen.frame m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories that agree on the nine arguments, both programs end with the result at the whole specification of the
    kernel's argument arrays, and with their arguments unchanged. -/
theorem algebraic : Cert.algebraic_KernelIdeal_ReferenceIdeal := by
  intro m ρ m' ρ' _ hagree
  refine ⟨fun c => Cert.Attn.whole (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)),
    Cert.Attn.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8⟩ := hagree c
  rw [Cert.ReferenceIdeal.Read.val_main_v34_eq, Cert.Attn.Ref.reference_eq, a0, a1, a2, a3, a4, a5, a6, a7, a8]

theorem claim : Cert.Claim := ⟨Cert.Kernel.Gen.facts, Cert.KernelIdeal.Gen.facts, Cert.ReferenceIdeal.Gen.facts, Cert.Pre_finite_inputs.Gen.facts,
  frame_kernel, frame_ideal, frame_reference, preserves, algebraic⟩

end Cert.Proof

end
